-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S2x100000 : Shape := ⟨2, ![2, 100000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : IVec S2x100000 32) (main_arg3 : FVec F S512x128 .f32) (main_arg4 : FVec F S128 .f32) (main_arg5 : FVec F S128x64 .f32) (main_arg6 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x512 : Shape := ⟨2, ![50000, 512]⟩
abbrev S2x800000 : Shape := ⟨2, ![2, 800000]⟩
abbrev S2x100000 : Shape := ⟨2, ![2, 100000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 150
  | .vmem => 16
  | .smem => 0
  | _ => 0

abbrev hbmTy0_0 (i : Nat) : BufTy := match i % 128 with
  | 0 => ⟨S50000x512, .f32⟩
  | 1 => ⟨S2x800000, .i32⟩
  | 2 => ⟨S2x100000, .i32⟩
  | 3 => ⟨S512x128, .f32⟩
  | 4 => ⟨S128, .f32⟩
  | 5 => ⟨S128x64, .f32⟩
  | 6 => ⟨S64, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S50000x64, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x64, .f32⟩
  | 116 => ⟨S850000x1, .f32⟩
  | 117 => ⟨S850000x64, .f32⟩
  | 118 => ⟨S850000x64, .f32⟩
  | 119 => ⟨S_, .f32⟩
  | 120 => ⟨S50000x64, .f32⟩
  | 121 => ⟨S850000x1, .i32⟩
  | 122 => ⟨S50000x64, .f32⟩
  | 123 => ⟨S1x64, .f32⟩
  | 124 => ⟨S50000x64, .f32⟩
  | 125 => ⟨S50000x64, .f32⟩
  | 126 => ⟨S1x100000, .i32⟩
  | 127 => ⟨S100000, .i32⟩
  | _ => ⟨S50000x512, .f32⟩

abbrev hbmTy0_1 (i : Nat) : BufTy := match i % 128 with
  | 0 => ⟨S1x100000, .i32⟩
  | 1 => ⟨S100000, .i32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x64, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x64, .f32⟩
  | 20 => ⟨S100000x1, .f32⟩
  | 21 => ⟨S100000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_20 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_c_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S100000x1_S100000x64_1_0_n_n_0_1_164_wf : GatherDims.WF S50000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v101) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v108) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v109) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S2x100000 : Shape := ⟨2, ![2, 100000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩

abbrev nBuf : Space → Nat
  | .hbm => 151
  | .vmem => 0
  | .smem => 0
  | _ => 0

abbrev hbmTy0_0 (i : Nat) : BufTy := match i % 128 with
  | 0 => ⟨S50000x512, .f32⟩
  | 1 => ⟨S2x800000, .i32⟩
  | 2 => ⟨S2x100000, .i32⟩
  | 3 => ⟨S512x128, .f32⟩
  | 4 => ⟨S128, .f32⟩
  | 5 => ⟨S128x64, .f32⟩
  | 6 => ⟨S64, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S50000x64, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x64, .f32⟩
  | 116 => ⟨S850000x1, .f32⟩
  | 117 => ⟨S850000x64, .f32⟩
  | 118 => ⟨S850000x64, .f32⟩
  | 119 => ⟨S_, .f32⟩
  | 120 => ⟨S50000x64, .f32⟩
  | 121 => ⟨S850000x1, .i32⟩
  | 122 => ⟨S50000x64, .f32⟩
  | 123 => ⟨S1x64, .f32⟩
  | 124 => ⟨S50000x64, .f32⟩
  | 125 => ⟨S50000x64, .f32⟩
  | 126 => ⟨S1x100000, .i32⟩
  | 127 => ⟨S100000, .i32⟩
  | _ => ⟨S50000x512, .f32⟩

abbrev hbmTy0_1 (i : Nat) : BufTy := match i % 128 with
  | 0 => ⟨S1x100000, .i32⟩
  | 1 => ⟨S100000, .i32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x64, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x64, .f32⟩
  | 20 => ⟨S100000x64, .f32⟩
  | 21 => ⟨S_, .f32⟩
  | 22 => ⟨S100000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_20 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_c_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  reducesTo_S100000x64_S100000_d1 : S100000x64.ReducesTo [1] S100000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S100000x1_S100000x64_1_0_n_n_0_1_164_wf : GatherDims.WF S50000x64 S100000x1 S100000x64 [1] [0] [] [0] [] 1 ![1, 64]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf

class Facts : Prop extends Facts₀ where

variable [Facts]
-- ==== Proof.KernelRun.lean ====
/-
  The idealized kernel's run with its result named.  The program is three launches between stretches of host
  operations; its buffers after each stretch and each launch are a fold from the launch memory, and the last
  stage of that fold is what every unscoped buffer holds when the run ends.  The frame reads only the argument
  arrays out of that last stage; here the result array is read out of it as well, so that a value proof can go
  on from "the result is the last stage of the fold at the result buffer".
-/
import proofs.«139701_j12017318494615_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last stage of the fold, read at the
    result buffer, and the argument arrays as launched. -/
theorem run : θ_run defs (onTc (τ := τ) (main (F := F))) ⟨m, fun _ => 0, ρ⟩ (fun r => ∀ c : Dev nD,
      r.2.mem ((c.tc : Thread nD τ).loc main_v110) = W13 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v110 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.RunValue

end
-- ==== Proof.RefRun.lean ====
/-
  The idealized reference's run, read back in pieces.  The reference is a straight line of host operations: two
  graph-convolution layers (degree normalisation by scatter-add and rsqrt, a dense product, a gather of the
  source rows scaled by the edge weight, a scatter-add into the target rows, the bias), a rectifier between
  them, and the decoder, which gathers the two end points' rows of every labelled edge and sums their product
  along the lanes.  Its operations are cut here into the stretches the kernel's host program runs between its launches (a called
  function's operations a stretch of their own), the two dense products standing alone, so that each stretch can be
  compared with the same stretch of the kernel's host program and each product with the launch that replaces it.
-/
import proofs.«139701_j12017318494615_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge lists with the self loops appended, the degrees by scatter-add, and the comparison and inverse square root the weights select between. -/
abbrev rA0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- The selection of the inverse square root where the degree is positive, zero elsewhere. -/
abbrev rA1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The first layer's edge weights: the normalisation at the source times the normalisation at the target. -/
abbrev rA2 : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The first layer after its product: the gather of the source rows, the scaling by the edge weight, the scatter-add into the target rows, the bias. -/
abbrev rB0 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- The rectifier. -/
abbrev rB1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second layer's edge lists and degrees (computed again). -/
abbrev rB2 : List (HloOp τ sig (Elt F)) :=
  [ nullary main_v48 (iotaInDim S50000 32 0),
    binary main_v1 main_v48 main_v49 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v48 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v51 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v52 (broadcastInDim S50000 ![] bcast_S_S50000 : (⟨S_, .f32⟩ : BufTy).Contents (Elt F) → (⟨S50000, .f32⟩ : BufTy).Contents (Elt F)),
    unary main_v50 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    unary main_v54 main_v57 (Host.rsqrt : (⟨S50000, .f32⟩ : BufTy).Contents (Elt F) → (⟨S50000, .f32⟩ : BufTy).Contents (Elt F)),
    nullary main_cst_12 (constant S_ .f32 0x00000000#32) ]

/-- The second layer's selection of the inverse square root. -/
abbrev rB3 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v57) (TRef.of (T := ⟨S50000, .f32⟩) main_call2_v1) (TRef.of (T := ⟨S50000, .f32⟩) main_v58) select ]

/-- The second layer's edge weights. -/
abbrev rB4 : List (HloOp τ sig (Elt F)) :=
  [ nullary main_c_13 (constantI S_ 32 0#32),
    unary main_c_13 main_v59 (broadcastInDim S850000 ![] bcast_S_S850000 : (⟨S_, .i32⟩ : BufTy).Contents (Elt F) → (⟨S850000, .i32⟩ : BufTy).Contents (Elt F)),
    binary main_v49 main_v59 main_v60 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v61 (broadcastInDim S850000 ![] bcast_S_S850000 : (⟨S_, .i32⟩ : BufTy).Contents (Elt F) → (⟨S850000, .i32⟩ : BufTy).Contents (Elt F)),
    binary main_v49 main_v61 main_v62 (addi : (⟨S850000, .i32⟩ : BufTy).Contents (Elt F) → (⟨S850000, .i32⟩ : BufTy).Contents (Elt F) → (⟨S850000, .i32⟩ : BufTy).Contents (Elt F)),
    ternary main_v60 main_v62 main_v49 main_v63 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v63 main_v64 (broadcastInDim S850000x1 ![0] bcast_S850000_S850000x1_0 : (⟨S850000, .i32⟩ : BufTy).Contents (Elt F) → (⟨S850000x1, .i32⟩ : BufTy).Contents (Elt F)),
    binary main_v58 main_v64 main_v65 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v66 (broadcastInDim S850000 ![] bcast_S_S850000 : (⟨S_, .i32⟩ : BufTy).Contents (Elt F) → (⟨S850000, .i32⟩ : BufTy).Contents (Elt F)),
    binary main_v50 main_v66 main_v67 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v68 (broadcastInDim S850000 ![] bcast_S_S850000 : (⟨S_, .i32⟩ : BufTy).Contents (Elt F) → (⟨S850000, .i32⟩ : BufTy).Contents (Elt F)),
    binary main_v50 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v50 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v58 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v65 main_v72 main_v73 (mulf : (⟨S850000, .f32⟩ : BufTy).Contents (Elt F) → (⟨S850000, .f32⟩ : BufTy).Contents (Elt F) → (⟨S850000, .f32⟩ : BufTy).Contents (Elt F)) ]

/-- The second layer after its product, and the decoder's two gathers of the end points' rows. -/
abbrev rC : List (HloOp τ sig (Elt F)) :=
  [ nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v49 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v49 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v49 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v74 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v73 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v50 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg6 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)),
    unary main_arg2 main_v91 ((extractStridedSlice S1x100000 ![0, 0] · slices_S2x100000_S1x100000_0_0) : (⟨S2x100000, .i32⟩ : BufTy).Contents (Elt F) → (⟨S1x100000, .i32⟩ : BufTy).Contents (Elt F)),
    reshape main_v91 main_v92 rfl shapeCasts_S1x100000_S100000,
    unary main_arg2 main_v93 ((extractStridedSlice S1x100000 ![1, 0] · slices_S2x100000_S1x100000_1_0) : (⟨S2x100000, .i32⟩ : BufTy).Contents (Elt F) → (⟨S1x100000, .i32⟩ : BufTy).Contents (Elt F)),
    reshape main_v93 main_v94 rfl shapeCasts_S1x100000_S100000,
    nullary main_c_20 (constantI S_ 32 0#32),
    unary main_c_20 main_v95 (broadcastInDim S100000 ![] bcast_S_S100000 : (⟨S_, .i32⟩ : BufTy).Contents (Elt F) → (⟨S100000, .i32⟩ : BufTy).Contents (Elt F)),
    binary main_v92 main_v95 main_v96 (cmpi .slt : (⟨S100000, .i32⟩ : BufTy).Contents (Elt F) → (⟨S100000, .i32⟩ : BufTy).Contents (Elt F) → (⟨S100000, .i1⟩ : BufTy).Contents (Elt F)),
    nullary main_c_21 (constantI S_ 32 50000#32),
    unary main_c_21 main_v97 (broadcastInDim S100000 ![] bcast_S_S100000 : (⟨S_, .i32⟩ : BufTy).Contents (Elt F) → (⟨S100000, .i32⟩ : BufTy).Contents (Elt F)),
    binary main_v92 main_v97 main_v98 (addi : (⟨S100000, .i32⟩ : BufTy).Contents (Elt F) → (⟨S100000, .i32⟩ : BufTy).Contents (Elt F) → (⟨S100000, .i32⟩ : BufTy).Contents (Elt F)),
    ternary main_v96 main_v98 main_v92 main_v99 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v99 main_v100 (broadcastInDim S100000x1 ![0] bcast_S100000_S100000x1_0 : (⟨S100000, .i32⟩ : BufTy).Contents (Elt F) → (⟨S100000x1, .i32⟩ : BufTy).Contents (Elt F)),
    binary main_v90 main_v100 main_v101 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)),
    nullary main_c_22 (constantI S_ 32 0#32),
    unary main_c_22 main_v102 (broadcastInDim S100000 ![] bcast_S_S100000 : (⟨S_, .i32⟩ : BufTy).Contents (Elt F) → (⟨S100000, .i32⟩ : BufTy).Contents (Elt F)),
    binary main_v94 main_v102 main_v103 (cmpi .slt : (⟨S100000, .i32⟩ : BufTy).Contents (Elt F) → (⟨S100000, .i32⟩ : BufTy).Contents (Elt F) → (⟨S100000, .i1⟩ : BufTy).Contents (Elt F)),
    nullary main_c_23 (constantI S_ 32 50000#32),
    unary main_c_23 main_v104 (broadcastInDim S100000 ![] bcast_S_S100000 : (⟨S_, .i32⟩ : BufTy).Contents (Elt F) → (⟨S100000, .i32⟩ : BufTy).Contents (Elt F)),
    binary main_v94 main_v104 main_v105 (addi : (⟨S100000, .i32⟩ : BufTy).Contents (Elt F) → (⟨S100000, .i32⟩ : BufTy).Contents (Elt F) → (⟨S100000, .i32⟩ : BufTy).Contents (Elt F)),
    ternary main_v103 main_v105 main_v94 main_v106 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v106 main_v107 (broadcastInDim S100000x1 ![0] bcast_S100000_S100000x1_0 : (⟨S100000, .i32⟩ : BufTy).Contents (Elt F) → (⟨S100000x1, .i32⟩ : BufTy).Contents (Elt F)),
    binary main_v90 main_v107 main_v108 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)) ]

/-- The decoder: the product of the two gathered operands summed along the lanes. -/
abbrev rD : List (HloOp τ sig (Elt F)) :=
  [ binary main_v101 main_v108 main_v109 (mulf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x00000000#32),
    binary main_v109 main_cst_24 main_v110 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) ]

/-- The first dense product, x · W1. -/
abbrev opDot1 : HloOp τ sig (Elt F) :=
  binary main_arg0 main_arg3 main_v30 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F))

/-- The second dense product, z · W2. -/
abbrev opDot2 : HloOp τ sig (Elt F) :=
  binary main_v47 main_arg5 main_v74 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F))

/-- @main's 144 operations, in order (a called function's operations stand in its call's place). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg3 main_v30 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    nullary main_v48 (iotaInDim S50000 32 0),
    binary main_v1 main_v48 main_v49 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v48 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v51 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v52 (broadcastInDim S50000 ![] bcast_S_S50000 : (⟨S_, .f32⟩ : BufTy).Contents (Elt F) → (⟨S50000, .f32⟩ : BufTy).Contents (Elt F)),
    unary main_v50 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    unary main_v54 main_v57 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v57) (TRef.of (T := ⟨S50000, .f32⟩) main_call2_v1) (TRef.of (T := ⟨S50000, .f32⟩) main_v58) select,
    nullary main_c_13 (constantI S_ 32 0#32),
    unary main_c_13 main_v59 (broadcastInDim S850000 ![] bcast_S_S850000 : (⟨S_, .i32⟩ : BufTy).Contents (Elt F) → (⟨S850000, .i32⟩ : BufTy).Contents (Elt F)),
    binary main_v49 main_v59 main_v60 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v61 (broadcastInDim S850000 ![] bcast_S_S850000 : (⟨S_, .i32⟩ : BufTy).Contents (Elt F) → (⟨S850000, .i32⟩ : BufTy).Contents (Elt F)),
    binary main_v49 main_v61 main_v62 (addi : (⟨S850000, .i32⟩ : BufTy).Contents (Elt F) → (⟨S850000, .i32⟩ : BufTy).Contents (Elt F) → (⟨S850000, .i32⟩ : BufTy).Contents (Elt F)),
    ternary main_v60 main_v62 main_v49 main_v63 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v63 main_v64 (broadcastInDim S850000x1 ![0] bcast_S850000_S850000x1_0 : (⟨S850000, .i32⟩ : BufTy).Contents (Elt F) → (⟨S850000x1, .i32⟩ : BufTy).Contents (Elt F)),
    binary main_v58 main_v64 main_v65 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v66 (broadcastInDim S850000 ![] bcast_S_S850000 : (⟨S_, .i32⟩ : BufTy).Contents (Elt F) → (⟨S850000, .i32⟩ : BufTy).Contents (Elt F)),
    binary main_v50 main_v66 main_v67 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v68 (broadcastInDim S850000 ![] bcast_S_S850000 : (⟨S_, .i32⟩ : BufTy).Contents (Elt F) → (⟨S850000, .i32⟩ : BufTy).Contents (Elt F)),
    binary main_v50 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v50 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v58 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v65 main_v72 main_v73 (mulf : (⟨S850000, .f32⟩ : BufTy).Contents (Elt F) → (⟨S850000, .f32⟩ : BufTy).Contents (Elt F) → (⟨S850000, .f32⟩ : BufTy).Contents (Elt F)),
    binary main_v47 main_arg5 main_v74 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v49 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v49 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v49 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v74 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v73 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v50 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg6 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)),
    unary main_arg2 main_v91 ((extractStridedSlice S1x100000 ![0, 0] · slices_S2x100000_S1x100000_0_0) : (⟨S2x100000, .i32⟩ : BufTy).Contents (Elt F) → (⟨S1x100000, .i32⟩ : BufTy).Contents (Elt F)),
    reshape main_v91 main_v92 rfl shapeCasts_S1x100000_S100000,
    unary main_arg2 main_v93 ((extractStridedSlice S1x100000 ![1, 0] · slices_S2x100000_S1x100000_1_0) : (⟨S2x100000, .i32⟩ : BufTy).Contents (Elt F) → (⟨S1x100000, .i32⟩ : BufTy).Contents (Elt F)),
    reshape main_v93 main_v94 rfl shapeCasts_S1x100000_S100000,
    nullary main_c_20 (constantI S_ 32 0#32),
    unary main_c_20 main_v95 (broadcastInDim S100000 ![] bcast_S_S100000 : (⟨S_, .i32⟩ : BufTy).Contents (Elt F) → (⟨S100000, .i32⟩ : BufTy).Contents (Elt F)),
    binary main_v92 main_v95 main_v96 (cmpi .slt : (⟨S100000, .i32⟩ : BufTy).Contents (Elt F) → (⟨S100000, .i32⟩ : BufTy).Contents (Elt F) → (⟨S100000, .i1⟩ : BufTy).Contents (Elt F)),
    nullary main_c_21 (constantI S_ 32 50000#32),
    unary main_c_21 main_v97 (broadcastInDim S100000 ![] bcast_S_S100000 : (⟨S_, .i32⟩ : BufTy).Contents (Elt F) → (⟨S100000, .i32⟩ : BufTy).Contents (Elt F)),
    binary main_v92 main_v97 main_v98 (addi : (⟨S100000, .i32⟩ : BufTy).Contents (Elt F) → (⟨S100000, .i32⟩ : BufTy).Contents (Elt F) → (⟨S100000, .i32⟩ : BufTy).Contents (Elt F)),
    ternary main_v96 main_v98 main_v92 main_v99 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v99 main_v100 (broadcastInDim S100000x1 ![0] bcast_S100000_S100000x1_0 : (⟨S100000, .i32⟩ : BufTy).Contents (Elt F) → (⟨S100000x1, .i32⟩ : BufTy).Contents (Elt F)),
    binary main_v90 main_v100 main_v101 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)),
    nullary main_c_22 (constantI S_ 32 0#32),
    unary main_c_22 main_v102 (broadcastInDim S100000 ![] bcast_S_S100000 : (⟨S_, .i32⟩ : BufTy).Contents (Elt F) → (⟨S100000, .i32⟩ : BufTy).Contents (Elt F)),
    binary main_v94 main_v102 main_v103 (cmpi .slt : (⟨S100000, .i32⟩ : BufTy).Contents (Elt F) → (⟨S100000, .i32⟩ : BufTy).Contents (Elt F) → (⟨S100000, .i1⟩ : BufTy).Contents (Elt F)),
    nullary main_c_23 (constantI S_ 32 50000#32),
    unary main_c_23 main_v104 (broadcastInDim S100000 ![] bcast_S_S100000 : (⟨S_, .i32⟩ : BufTy).Contents (Elt F) → (⟨S100000, .i32⟩ : BufTy).Contents (Elt F)),
    binary main_v94 main_v104 main_v105 (addi : (⟨S100000, .i32⟩ : BufTy).Contents (Elt F) → (⟨S100000, .i32⟩ : BufTy).Contents (Elt F) → (⟨S100000, .i32⟩ : BufTy).Contents (Elt F)),
    ternary main_v103 main_v105 main_v94 main_v106 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v106 main_v107 (broadcastInDim S100000x1 ![0] bcast_S100000_S100000x1_0 : (⟨S100000, .i32⟩ : BufTy).Contents (Elt F) → (⟨S100000x1, .i32⟩ : BufTy).Contents (Elt F)),
    binary main_v90 main_v107 main_v108 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)),
    binary main_v101 main_v108 main_v109 (mulf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x00000000#32),
    binary main_v109 main_cst_24 main_v110 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

set_option maxRecDepth 8192 in
/-- The operations are the six pieces in order. -/
theorem ops_split : (ops : List (HloOp τ sig (Elt F))) = rA0 ++ (rA1 ++ (rA2 ++ (opDot1 :: (rB0 ++ (rB1 ++ (rB2 ++ (rB3 ++ (rB4 ++ (opDot2 :: (rC ++ rD)))))))))) := rfl

/-- The buffers after the whole line are the buffers after its pieces, one after the other. -/
theorem after_split (V : Valuation τ sig (Elt F)) :
    after ops V = after rD (after rC (opDot2.result (after rB4 (after rB3 (after rB2 (after rB1 (after rB0 (opDot1.result (after rA2 (after rA1 (after rA0 V))))))))))) := by
  rw [ops_split]
  simp only [after_append, after_cons]

set_option maxRecDepth 8192 in
theorem kept_arg0 (V : Valuation τ sig (Elt F)) : after ops V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))
set_option maxRecDepth 8192 in
theorem kept_arg1 (V : Valuation τ sig (Elt F)) : after ops V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))
set_option maxRecDepth 8192 in
theorem kept_arg2 (V : Valuation τ sig (Elt F)) : after ops V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))
set_option maxRecDepth 8192 in
theorem kept_arg3 (V : Valuation τ sig (Elt F)) : after ops V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))
set_option maxRecDepth 8192 in
theorem kept_arg4 (V : Valuation τ sig (Elt F)) : after ops V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, ternary_writes, reshape_writes, Finset.mem_singleton]
    repeat' apply And.intro
    all_goals exact devRef_ne_of_ne (by decide)))
set_option maxRecDepth 8192 in
theorem kept_arg5 (V : Valuation τ sig (Elt F)) : after ops V (Proc.devRef .tc main_arg5) = V (Proc.devRef .tc main_arg5) :=
  after_of_forall_not_mem (b := Proc.devRef .tc main_arg5) _ _ (List.forall_iff_forall_mem.mp (by
    simp only [ops, List.Forall, nullary_writes, unary_writes, binary_writes, ternary_writes, reshape_writes, Finset.mem_singleton]
    repeat' apply And.intro
    all_goals exact devRef_ne_of_ne (by decide)))
set_option maxRecDepth 8192 in
theorem kept_arg6 (V : Valuation τ sig (Elt F)) : after ops V (Proc.devRef .tc main_arg6) = V (Proc.devRef .tc main_arg6) :=
  after_of_forall_not_mem (b := Proc.devRef .tc main_arg6) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
/-- On every device, from any memory with zero counters: every weakly fair execution of @main terminates with the
    result at the pieces' fold over the launch contents, read at the result buffer, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110)
        = after rD (after rC (opDot2.result (after rB4 (after rB3 (after rB2 (after rB1 (after rB0 (opDot1.result (after rA2 (after rA1 (after rA0 (launchContents m c)))))))))))) (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v110).trans (congrFun (after_split _) _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _)⟩)
    (run_seq scopedRefs_eq scopedSems_eq defs main (fun _ => ops) main_eq (fun _ => ops_sub) m ρ)

end Cert.ReferenceIdeal.RefRun

end
-- ==== Proof.Product1.lean ====
/-
  The first dense product as the launch computes it: the array it leaves is the matrix product of its two operand
  arrays.  The launch walks the rows in blocks of 2000; at each block it multiplies that block of the left matrix by
  the whole right matrix (both narrowed to bf16 on the way in, which changes nothing on extended reals) into a
  zero accumulator and writes the block of the result back.  Entry (r, q) of a block is the sum over k of the
  block's row r times column q, the block's row r is row 2000·t + r of the left matrix, and the blocks tile the rows:
  so entry (p, q) of the result is the sum over k of left(p, k) · right(k, q).
-/
import proofs.«139701_j12017318494615_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product1

open Cert.KernelIdeal Cert.KernelIdeal.Gen
open Idealize.ShloMosaic Idealize.ShloMosaic.TcCoe Idealize.SL.Sem
open Idealize.ShloMosaic.Pipeline (Dat Cfg Window)

/-- The left operand's index (p, k) under result index i = (p, q). -/
abbrev lix {A N : ℕ} (K : ℕ) (i : (⟨2, ![A, N]⟩ : Shape).Idx) (k : Fin K) : (⟨2, ![A, K]⟩ : Shape).Idx := fun a => match a with
  | ⟨0, _⟩ => ⟨(i 0).val, (i 0).isLt⟩
  | ⟨1, _⟩ => ⟨k.val, k.isLt⟩
/-- The right operand's index (k, q) under result index i = (p, q). -/
abbrev rix {A N : ℕ} (K : ℕ) (i : (⟨2, ![A, N]⟩ : Shape).Idx) (k : Fin K) : (⟨2, ![K, N]⟩ : Shape).Idx := fun a => match a with
  | ⟨0, _⟩ => ⟨k.val, k.isLt⟩
  | ⟨1, _⟩ => ⟨(i 1).val, (i 1).isLt⟩

/-- The matrix product of the whole arrays: entry (p, q) is the sum over k of x(p, k) · w(k, q). -/
def prod (x : S50000x512.Idx → EReal) (w : S512x128.Idx → EReal) : S50000x128.Idx → EReal :=
  fun i => ∑ k : Fin 512, x (lix 512 i k) * w (rix 512 i k)

theorem lhs_0 (j : S2000x128.Idx) (q : (dot_S2000x512_S512x128_S2000x128_1_0_0_1_n_n).contr.Idx) : ((dot_S2000x512_S512x128_S2000x128_1_0_0_1_n_n).lhsIdx j q 0).val = (j 0).val := by
  unfold DotDims.lhsIdx
  rw [dif_neg (show ¬(0 : Fin S2000x512.rank) ∈ (dot_S2000x512_S512x128_S2000x128_1_0_0_1_n_n).lhsBatch by decide), dif_pos (show (0 : Fin S2000x512.rank) ∈ (dot_S2000x512_S512x128_S2000x128_1_0_0_1_n_n).lhsNonContracting by decide)]
  rfl
theorem lhs_1 (j : S2000x128.Idx) (q : (dot_S2000x512_S512x128_S2000x128_1_0_0_1_n_n).contr.Idx) : ((dot_S2000x512_S512x128_S2000x128_1_0_0_1_n_n).lhsIdx j q 1).val = (q ⟨0, by decide⟩).val :=
  (dot_S2000x512_S512x128_S2000x128_1_0_0_1_n_n).lhsIdx_val_of_single rfl j q
theorem rhs_0 (j : S2000x128.Idx) (q : (dot_S2000x512_S512x128_S2000x128_1_0_0_1_n_n).contr.Idx) : ((dot_S2000x512_S512x128_S2000x128_1_0_0_1_n_n).rhsIdx j q 0).val = (q ⟨0, by decide⟩).val :=
  (dot_S2000x512_S512x128_S2000x128_1_0_0_1_n_n).rhsIdx_val_of_single rfl j q
theorem rhs_1 (j : S2000x128.Idx) (q : (dot_S2000x512_S512x128_S2000x128_1_0_0_1_n_n).contr.Idx) : ((dot_S2000x512_S512x128_S2000x128_1_0_0_1_n_n).rhsIdx j q 1).val = (j 1).val := by
  unfold DotDims.rhsIdx
  rw [dif_neg (show ¬(1 : Fin S512x128.rank) ∈ (dot_S2000x512_S512x128_S2000x128_1_0_0_1_n_n).rhsBatch by decide), dif_pos (show (1 : Fin S512x128.rank) ∈ (dot_S2000x512_S512x128_S2000x128_1_0_0_1_n_n).rhsNonContracting by decide)]
  rfl

/-- The block product's sum over its contraction index is the sum over k of row (r, k) times column (k, q). -/
theorem block_sum (l : S2000x512.Idx → EReal) (r : S512x128.Idx → EReal) (j : S2000x128.Idx) :
    ∑ k : (dot_S2000x512_S512x128_S2000x128_1_0_0_1_n_n).contr.Idx, l ((dot_S2000x512_S512x128_S2000x128_1_0_0_1_n_n).lhsIdx j k) * r ((dot_S2000x512_S512x128_S2000x128_1_0_0_1_n_n).rhsIdx j k) = ∑ k : Fin 512, l (lix 512 j k) * r (rix 512 j k) := by
  rw [← Equiv.sum_comp (ValueIdx.contrEquiv1 (dot_S2000x512_S512x128_S2000x128_1_0_0_1_n_n) 512 rfl rfl).symm]
  refine Finset.sum_congr rfl fun k _ => ?_
  have hk := ValueIdx.contrEquiv1_symm_val (dot_S2000x512_S512x128_S2000x128_1_0_0_1_n_n) 512 rfl rfl k
  have el : (dot_S2000x512_S512x128_S2000x128_1_0_0_1_n_n).lhsIdx j ((ValueIdx.contrEquiv1 (dot_S2000x512_S512x128_S2000x128_1_0_0_1_n_n) 512 rfl rfl).symm k) = lix 512 j k := funext fun a => Fin.ext (by
    match a with
    | ⟨0, _⟩ => exact lhs_0 _ _
    | ⟨1, _⟩ => exact (lhs_1 _ _).trans hk)
  have er : (dot_S2000x512_S512x128_S2000x128_1_0_0_1_n_n).rhsIdx j ((ValueIdx.contrEquiv1 (dot_S2000x512_S512x128_S2000x128_1_0_0_1_n_n) 512 rfl rfl).symm k) = rix 512 j k := funext fun a => Fin.ext (by
    match a with
    | ⟨0, _⟩ => exact (rhs_0 _ _).trans hk
    | ⟨1, _⟩ => exact rhs_1 _ _)
  rw [el, er]

/-- The body's payload at an entry of the block: the sum over k of the loaded left block's row times the loaded
    right matrix's column. -/
theorem pay_apply (x0 : Vec Ideal S2000x512 .f32) (x1 : Vec Ideal S512x128 .f32) (j : S2000x128.Idx) :
    k0_pay1 (F := Ideal) x0 x1 j = ∑ k : Fin 512, x0 (lix 512 j k) * x1 (rix 512 j k) := by
  unfold k0_pay1
  exact (Ideal.matmul_constant_zero_apply (dot_S2000x512_S512x128_S2000x128_1_0_0_1_n_n) none (truncf .bf16 x0 bitsLt_bf16_f32) (truncf .bf16 x1 bitsLt_bf16_f32) j).trans
    (block_sum (fun a => x0 a) (fun a => x1 a) j)

theorem hz : (![0, 0] : Fin 2 → Nat) = fun _ => 0 := funext fun a => by fin_cases a <;> rfl

/-- The printed index maps over the grid: the left operand's and the result's block of rows is the point's own, on the
    lane axis every window has its one block, and the right operand is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

variable (V : (c : Dev nD) → (b : Ref sig .tc) → Buf (Elt Ideal) ((c : Thread nD τ).loc b))

/-- What point t writes back is block t of the product of the operand arrays as the launch finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5, e6⟩ := idx_facts t
  funext j
  show k0_pay1 (iblk0 V c 0 t) (iblk0 V c 1 t) j = prod (V c main_arg0) (V c main_arg3) (((cfg0.win 2).blk t).view.emb j)
  refine (pay_apply (iblk0 V c 0 t) (iblk0 V c 1 t) j).trans ?_
  show _ = ∑ k : Fin 512, _
  refine Finset.sum_congr rfl fun k _ => ?_
  have h0 : iblk0 V c 0 t (lix 512 j k) = V c main_arg0 (lix 512 (((cfg0.win 2).blk t).view.emb j) k) := by
    show V c main_arg0 (((cfg0.win 0).blk t).view.emb (lix 512 j k)) = V c main_arg0 (lix 512 (((cfg0.win 2).blk t).view.emb j) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : iblk0 V c 1 t (rix 512 j k) = V c main_arg3 (rix 512 (((cfg0.win 2).blk t).view.emb j) k) := by
    show V c main_arg3 (((cfg0.win 1).blk t).view.emb (rix 512 j k)) = V c main_arg3 (rix 512 (((cfg0.win 2).blk t).view.emb j) k)
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [h0, h1]

/-- An index of the result array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The blocks tile the result array: row p lies in the block of point p / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5, e6⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the launch is the matrix product of the operand arrays as the launch finds them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Product1

end
-- ==== Proof.Product2.lean ====
/-
  The second dense product as the launch computes it: the array it leaves is the matrix product of its two operand
  arrays.  The launch walks the rows in blocks of 5000; at each block it multiplies that block of the left matrix by
  the whole right matrix (both narrowed to bf16 on the way in, which changes nothing on extended reals) into a
  zero accumulator and writes the block of the result back.  Entry (r, q) of a block is the sum over k of the
  block's row r times column q, the block's row r is row 5000·t + r of the left matrix, and the blocks tile the rows:
  so entry (p, q) of the result is the sum over k of left(p, k) · right(k, q).
-/
import proofs.«139701_j12017318494615_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product2

open Cert.KernelIdeal Cert.KernelIdeal.Gen
open Idealize.ShloMosaic Idealize.ShloMosaic.TcCoe Idealize.SL.Sem
open Idealize.ShloMosaic.Pipeline (Dat Cfg Window)

/-- The left operand's index (p, k) under result index i = (p, q). -/
abbrev lix {A N : ℕ} (K : ℕ) (i : (⟨2, ![A, N]⟩ : Shape).Idx) (k : Fin K) : (⟨2, ![A, K]⟩ : Shape).Idx := fun a => match a with
  | ⟨0, _⟩ => ⟨(i 0).val, (i 0).isLt⟩
  | ⟨1, _⟩ => ⟨k.val, k.isLt⟩
/-- The right operand's index (k, q) under result index i = (p, q). -/
abbrev rix {A N : ℕ} (K : ℕ) (i : (⟨2, ![A, N]⟩ : Shape).Idx) (k : Fin K) : (⟨2, ![K, N]⟩ : Shape).Idx := fun a => match a with
  | ⟨0, _⟩ => ⟨k.val, k.isLt⟩
  | ⟨1, _⟩ => ⟨(i 1).val, (i 1).isLt⟩

/-- The matrix product of the whole arrays: entry (p, q) is the sum over k of x(p, k) · w(k, q). -/
def prod (x : S50000x128.Idx → EReal) (w : S128x64.Idx → EReal) : S50000x64.Idx → EReal :=
  fun i => ∑ k : Fin 128, x (lix 128 i k) * w (rix 128 i k)

theorem lhs_0 (j : S5000x64.Idx) (q : (dot_S5000x128_S128x64_S5000x64_1_0_0_1_n_n).contr.Idx) : ((dot_S5000x128_S128x64_S5000x64_1_0_0_1_n_n).lhsIdx j q 0).val = (j 0).val := by
  unfold DotDims.lhsIdx
  rw [dif_neg (show ¬(0 : Fin S5000x128.rank) ∈ (dot_S5000x128_S128x64_S5000x64_1_0_0_1_n_n).lhsBatch by decide), dif_pos (show (0 : Fin S5000x128.rank) ∈ (dot_S5000x128_S128x64_S5000x64_1_0_0_1_n_n).lhsNonContracting by decide)]
  rfl
theorem lhs_1 (j : S5000x64.Idx) (q : (dot_S5000x128_S128x64_S5000x64_1_0_0_1_n_n).contr.Idx) : ((dot_S5000x128_S128x64_S5000x64_1_0_0_1_n_n).lhsIdx j q 1).val = (q ⟨0, by decide⟩).val :=
  (dot_S5000x128_S128x64_S5000x64_1_0_0_1_n_n).lhsIdx_val_of_single rfl j q
theorem rhs_0 (j : S5000x64.Idx) (q : (dot_S5000x128_S128x64_S5000x64_1_0_0_1_n_n).contr.Idx) : ((dot_S5000x128_S128x64_S5000x64_1_0_0_1_n_n).rhsIdx j q 0).val = (q ⟨0, by decide⟩).val :=
  (dot_S5000x128_S128x64_S5000x64_1_0_0_1_n_n).rhsIdx_val_of_single rfl j q
theorem rhs_1 (j : S5000x64.Idx) (q : (dot_S5000x128_S128x64_S5000x64_1_0_0_1_n_n).contr.Idx) : ((dot_S5000x128_S128x64_S5000x64_1_0_0_1_n_n).rhsIdx j q 1).val = (j 1).val := by
  unfold DotDims.rhsIdx
  rw [dif_neg (show ¬(1 : Fin S128x64.rank) ∈ (dot_S5000x128_S128x64_S5000x64_1_0_0_1_n_n).rhsBatch by decide), dif_pos (show (1 : Fin S128x64.rank) ∈ (dot_S5000x128_S128x64_S5000x64_1_0_0_1_n_n).rhsNonContracting by decide)]
  rfl

/-- The block product's sum over its contraction index is the sum over k of row (r, k) times column (k, q). -/
theorem block_sum (l : S5000x128.Idx → EReal) (r : S128x64.Idx → EReal) (j : S5000x64.Idx) :
    ∑ k : (dot_S5000x128_S128x64_S5000x64_1_0_0_1_n_n).contr.Idx, l ((dot_S5000x128_S128x64_S5000x64_1_0_0_1_n_n).lhsIdx j k) * r ((dot_S5000x128_S128x64_S5000x64_1_0_0_1_n_n).rhsIdx j k) = ∑ k : Fin 128, l (lix 128 j k) * r (rix 128 j k) := by
  rw [← Equiv.sum_comp (ValueIdx.contrEquiv1 (dot_S5000x128_S128x64_S5000x64_1_0_0_1_n_n) 128 rfl rfl).symm]
  refine Finset.sum_congr rfl fun k _ => ?_
  have hk := ValueIdx.contrEquiv1_symm_val (dot_S5000x128_S128x64_S5000x64_1_0_0_1_n_n) 128 rfl rfl k
  have el : (dot_S5000x128_S128x64_S5000x64_1_0_0_1_n_n).lhsIdx j ((ValueIdx.contrEquiv1 (dot_S5000x128_S128x64_S5000x64_1_0_0_1_n_n) 128 rfl rfl).symm k) = lix 128 j k := funext fun a => Fin.ext (by
    match a with
    | ⟨0, _⟩ => exact lhs_0 _ _
    | ⟨1, _⟩ => exact (lhs_1 _ _).trans hk)
  have er : (dot_S5000x128_S128x64_S5000x64_1_0_0_1_n_n).rhsIdx j ((ValueIdx.contrEquiv1 (dot_S5000x128_S128x64_S5000x64_1_0_0_1_n_n) 128 rfl rfl).symm k) = rix 128 j k := funext fun a => Fin.ext (by
    match a with
    | ⟨0, _⟩ => exact (rhs_0 _ _).trans hk
    | ⟨1, _⟩ => exact rhs_1 _ _)
  rw [el, er]

/-- The body's payload at an entry of the block: the sum over k of the loaded left block's row times the loaded
    right matrix's column. -/
theorem pay_apply (x0 : Vec Ideal S5000x128 .f32) (x1 : Vec Ideal S128x64 .f32) (j : S5000x64.Idx) :
    k1_pay1 (F := Ideal) x0 x1 j = ∑ k : Fin 128, x0 (lix 128 j k) * x1 (rix 128 j k) := by
  unfold k1_pay1
  rw [shapeCast_self x0 shapeCasts_S5000x128_S5000x128]
  exact (Ideal.matmul_constant_zero_apply (dot_S5000x128_S128x64_S5000x64_1_0_0_1_n_n) none (truncf .bf16 x0 bitsLt_bf16_f32) (truncf .bf16 x1 bitsLt_bf16_f32) j).trans
    (block_sum (fun a => x0 a) (fun a => x1 a) j)

theorem hz : (![0, 0] : Fin 2 → Nat) = fun _ => 0 := funext fun a => by fin_cases a <;> rfl

/-- The printed index maps over the grid: the left operand's and the result's block of rows is the point's own, on the
    lane axis every window has its one block, and the right operand is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

variable (V : (c : Dev nD) → (b : Ref sig .tc) → Buf (Elt Ideal) ((c : Thread nD τ).loc b))

/-- What point t writes back is block t of the product of the operand arrays as the launch finds them. -/
theorem flushed_eq (c : Dev nD) (t : Fin cfg1.N) :
    (dat1 V c).flushed 2 t = ((cfg1.win 2).blk t).view.read (Elt Ideal) (prod (V c main_v47) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5, e6⟩ := idx_facts t
  funext j
  show k1_pay1 (iblk1 V c 0 t) (iblk1 V c 1 t) j = prod (V c main_v47) (V c main_arg5) (((cfg1.win 2).blk t).view.emb j)
  refine (pay_apply (iblk1 V c 0 t) (iblk1 V c 1 t) j).trans ?_
  show _ = ∑ k : Fin 128, _
  refine Finset.sum_congr rfl fun k _ => ?_
  have h0 : iblk1 V c 0 t (lix 128 j k) = V c main_v47 (lix 128 (((cfg1.win 2).blk t).view.emb j) k) := by
    show V c main_v47 (((cfg1.win 0).blk t).view.emb (lix 128 j k)) = V c main_v47 (lix 128 (((cfg1.win 2).blk t).view.emb j) k)
    refine congrArg (V c main_v47) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : iblk1 V c 1 t (rix 128 j k) = V c main_arg5 (rix 128 (((cfg1.win 2).blk t).view.emb j) k) := by
    show V c main_arg5 (((cfg1.win 1).blk t).view.emb (rix 128 j k)) = V c main_arg5 (rix 128 (((cfg1.win 2).blk t).view.emb j) k)
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [h0, h1]

/-- An index of the result array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v74).slice (win1_2.rect t)).set ↔ _
  rw [View.set_slice_whole, Rect.mem_set_unit]
  exact Iff.rfl

/-- The blocks tile the result array: row p lies in the block of point p / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5, e6⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the launch is the matrix product of the operand arrays as the launch finds them. -/
theorem final (c : Dev nD) : (dat1 V c).arrAt 2 cfg1.N = prod (V c main_v47) (V c main_arg5) :=
  (dat1 V c).arrAt_eq_of_cover 2 (prod (V c main_v47) (V c main_arg5)) (fun t _ => flushed_eq V c t) cover

end Cert.KernelIdeal.Product2

end
-- ==== Proof.Decode.lean ====
/-
  The decoder as the launch computes it: the column it leaves holds, for every labelled edge, the inner product of
  the two end points' rows.  The launch walks the edges in blocks of 10000; at each block it multiplies the two
  operand blocks entry by entry, sums the products along the 64 lanes from a zero start, and writes the block of
  the one-lane column back.  Row r of a block is edge 10000·t + r and the blocks tile the edges: so entry (e, 0)
  of the column is the sum over k of a(e, k) · b(e, k).
-/
import proofs.«139701_j12017318494615_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Decode

open Cert.KernelIdeal Cert.KernelIdeal.Gen
open Idealize.ShloMosaic Idealize.ShloMosaic.TcCoe Idealize.SL.Sem
open Idealize.ShloMosaic.Pipeline (Dat Cfg Window)

/-- The operands' index (e, k) under the column's index i = (e, 0). -/
abbrev lane {E : ℕ} (K : ℕ) (i : (⟨2, ![E, 1]⟩ : Shape).Idx) (k : Fin K) : (⟨2, ![E, K]⟩ : Shape).Idx := fun a => match a with
  | ⟨0, _⟩ => ⟨(i 0).val, (i 0).isLt⟩
  | ⟨1, _⟩ => ⟨k.val, k.isLt⟩

/-- The row-wise inner products of two [100000, 64] matrices, as a one-lane column. -/
def dots (a b : S100000x64.Idx → EReal) : S100000x1.Idx → EReal :=
  fun i => ∑ k : Fin 64, a (lane 64 i k) * b (lane 64 i k)

/-- The body's payload at an entry of the block's column: the sum over the lanes of the products of the two loaded
    blocks' entries in that row. -/
theorem pay_apply (x0 x1 : Vec Ideal S10000x64 .f32) (j : S10000x1.Idx) :
    k2_pay1 (F := Ideal) x0 x1 j = ∑ k : Fin 64, x0 (lane 64 j k) * x1 (lane 64 j k) := by
  unfold k2_pay1
  rw [shapeCast_self x0 shapeCasts_S10000x64_S10000x64, shapeCast_self x1 shapeCasts_S10000x64_S10000x64]
  have hj1 : (j 1).val < 1 := (j 1).isLt
  refine (shapeCast_apply _ shapeCasts_S10000_S10000x1 j (ValueIdx.ix1 (⟨(j 0).val, (j 0).isLt⟩ : Fin 10000)) (by
    rw [Shape.rowMajor_val_two, Shape.rowMajor_val_one]; show (j 0).val = (j 0).val * 1 + (j 1).val; omega)).trans ?_
  refine (Ideal.multiReduction_add_single (mulf x0 x1) 0x00000000#32 reduces_S10000x64_S10000 (.inl rfl) rfl _).trans ?_
  show ∑ k : Fin 64, _ = _
  refine Finset.sum_congr rfl fun k _ => ?_
  have e : reduces_S10000x64_S10000.lift (ValueIdx.ix1 (⟨(j 0).val, (j 0).isLt⟩ : Fin 10000)) k = lane 64 j k :=
    funext fun a => Fin.ext (by
      match a with
      | ⟨0, _⟩ => rfl
      | ⟨1, _⟩ => rfl)
  show x0 (reduces_S10000x64_S10000.lift _ k) * x1 (reduces_S10000x64_S10000.lift _ k) = _
  rw [e]

theorem hz : (![0, 0] : Fin 2 → Nat) = fun _ => 0 := funext fun a => by fin_cases a <;> rfl

/-- The printed index maps over the grid: every window's block of rows is the point's own, and each has its one block
    on the lane axis. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 ∧ t.val < 10 :=
  (by decide +kernel : ∀ t : Fin grid2.N, _)

variable (V : (c : Dev nD) → (b : Ref sig .tc) → Buf (Elt Ideal) ((c : Thread nD τ).loc b))

/-- What point t writes back is block t of the inner products of the operand arrays as the launch finds them. -/
theorem flushed_eq (c : Dev nD) (t : Fin cfg2.N) :
    (dat2 V c).flushed 2 t = ((cfg2.win 2).blk t).view.read (Elt Ideal) (dots (V c main_v101) (V c main_v108)) := by
  show (cfg2.win 2).cut (grid2.coords t) ((dat2 V c).after 2 t) = _
  rw [after2_2]
  unfold out2_2
  rw [View.canon_unit_zero hz]
  simp only [View.ld_unit_zero (S := S10000x64) hz]
  obtain ⟨e0, e1, e2, e3, e4, e5, e6⟩ := idx_facts t
  funext j
  show k2_pay1 (iblk2 V c 0 t) (iblk2 V c 1 t) j = dots (V c main_v101) (V c main_v108) (((cfg2.win 2).blk t).view.emb j)
  refine (pay_apply (iblk2 V c 0 t) (iblk2 V c 1 t) j).trans ?_
  show _ = ∑ k : Fin 64, _
  refine Finset.sum_congr rfl fun k _ => ?_
  have h0 : iblk2 V c 0 t (lane 64 j k) = V c main_v101 (lane 64 (((cfg2.win 2).blk t).view.emb j) k) := by
    show V c main_v101 (((cfg2.win 0).blk t).view.emb (lane 64 j k)) = V c main_v101 (lane 64 (((cfg2.win 2).blk t).view.emb j) k)
    refine congrArg (V c main_v101) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : iblk2 V c 1 t (lane 64 j k) = V c main_v108 (lane 64 (((cfg2.win 2).blk t).view.emb j) k) := by
    show V c main_v108 (((cfg2.win 1).blk t).view.emb (lane 64 j k)) = V c main_v108 (lane 64 (((cfg2.win 2).blk t).view.emb j) k)
    refine congrArg (V c main_v108) (funext fun a => Fin.ext ?_)
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * k.val = k.val; omega
  rw [h0, h1]

/-- An index of the column is in point t's block iff each coordinate is in the block's range on its axis. -/
theorem mem_blk (t : Fin cfg2.N) (i : S100000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v109).slice (win2_2.rect t)).set ↔ _
  rw [View.set_slice_whole, Rect.mem_set_unit]
  exact Iff.rfl

/-- The blocks tile the column: edge e lies in the block of point e / 10000. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 10 := N_2
  let t : Fin cfg2.N := ⟨(i 0).val / 10000, by rw [hN]; omega⟩
  obtain ⟨e0, e1, e2, e3, e4, e5, e6⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-- The column after the launch holds the row-wise inner products of the operand arrays as the launch finds them. -/
theorem final (c : Dev nD) : (dat2 V c).arrAt 2 cfg2.N = dots (V c main_v101) (V c main_v108) :=
  (dat2 V c).arrAt_eq_of_cover 2 (dots (V c main_v101) (V c main_v108)) (fun t _ => flushed_eq V c t) cover

end Cert.KernelIdeal.Decode

end
-- ==== Proof.RefProducts.lean ====
/-
  The reference's two dense products and its decoder's sum, read at an index on the extended reals.  A host
  dot product over the one contracted axis is, at entry (p, q), the sum over k of x(p, k) · w(k, q), with no
  accumulator; the host's sum along the lanes started from the zero constant is, at row e, zero plus the sum over
  k of the entries (e, k).
-/
import proofs.«139701_j12017318494615_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Products

open Cert.ReferenceIdeal Cert.ReferenceIdeal.Gen
open Idealize.ShloMosaic Idealize.ShloMosaic.TcCoe

/-- The left operand's index (p, k) under result index i = (p, q). -/
abbrev lix {A N : ℕ} (K : ℕ) (i : (⟨2, ![A, N]⟩ : Shape).Idx) (k : Fin K) : (⟨2, ![A, K]⟩ : Shape).Idx := fun a => match a with
  | ⟨0, _⟩ => ⟨(i 0).val, (i 0).isLt⟩
  | ⟨1, _⟩ => ⟨k.val, k.isLt⟩
/-- The right operand's index (k, q) under result index i = (p, q). -/
abbrev rix {A N : ℕ} (K : ℕ) (i : (⟨2, ![A, N]⟩ : Shape).Idx) (k : Fin K) : (⟨2, ![K, N]⟩ : Shape).Idx := fun a => match a with
  | ⟨0, _⟩ => ⟨k.val, k.isLt⟩
  | ⟨1, _⟩ => ⟨(i 1).val, (i 1).isLt⟩
/-- The summed matrix's index (e, k) under the result's index i = (e). -/
abbrev lane {E : ℕ} (K : ℕ) (i : (⟨1, ![E]⟩ : Shape).Idx) (k : Fin K) : (⟨2, ![E, K]⟩ : Shape).Idx := fun a => match a with
  | ⟨0, _⟩ => ⟨(i 0).val, (i 0).isLt⟩
  | ⟨1, _⟩ => ⟨k.val, k.isLt⟩

section First

theorem dot1_lhs_0 (j : S50000x128.Idx) (q : (dot_S50000x512_S512x128_S50000x128_1_0_0_1_n_n).contr.Idx) : ((dot_S50000x512_S512x128_S50000x128_1_0_0_1_n_n).lhsIdx j q 0).val = (j 0).val := by
  unfold DotDims.lhsIdx
  rw [dif_neg (show ¬(0 : Fin S50000x512.rank) ∈ (dot_S50000x512_S512x128_S50000x128_1_0_0_1_n_n).lhsBatch by decide), dif_pos (show (0 : Fin S50000x512.rank) ∈ (dot_S50000x512_S512x128_S50000x128_1_0_0_1_n_n).lhsNonContracting by decide)]
  rfl
theorem dot1_lhs_1 (j : S50000x128.Idx) (q : (dot_S50000x512_S512x128_S50000x128_1_0_0_1_n_n).contr.Idx) : ((dot_S50000x512_S512x128_S50000x128_1_0_0_1_n_n).lhsIdx j q 1).val = (q ⟨0, by decide⟩).val :=
  (dot_S50000x512_S512x128_S50000x128_1_0_0_1_n_n).lhsIdx_val_of_single rfl j q
theorem dot1_rhs_0 (j : S50000x128.Idx) (q : (dot_S50000x512_S512x128_S50000x128_1_0_0_1_n_n).contr.Idx) : ((dot_S50000x512_S512x128_S50000x128_1_0_0_1_n_n).rhsIdx j q 0).val = (q ⟨0, by decide⟩).val :=
  (dot_S50000x512_S512x128_S50000x128_1_0_0_1_n_n).rhsIdx_val_of_single rfl j q
theorem dot1_rhs_1 (j : S50000x128.Idx) (q : (dot_S50000x512_S512x128_S50000x128_1_0_0_1_n_n).contr.Idx) : ((dot_S50000x512_S512x128_S50000x128_1_0_0_1_n_n).rhsIdx j q 1).val = (j 1).val := by
  unfold DotDims.rhsIdx
  rw [dif_neg (show ¬(1 : Fin S512x128.rank) ∈ (dot_S50000x512_S512x128_S50000x128_1_0_0_1_n_n).rhsBatch by decide), dif_pos (show (1 : Fin S512x128.rank) ∈ (dot_S50000x512_S512x128_S50000x128_1_0_0_1_n_n).rhsNonContracting by decide)]
  rfl

/-- The host's first dense product at entry (p, q): the sum over k of x(p, k) · w(k, q). -/
theorem dot1_apply (x : S50000x512.Idx → EReal) (w : S512x128.Idx → EReal) (j : S50000x128.Idx) :
    Host.dotGeneral (F := Ideal) (φ₁ := .f32) (φ₂ := .f32) (dot_S50000x512_S512x128_S50000x128_1_0_0_1_n_n) none x w j = ∑ k : Fin 512, x (lix 512 j k) * w (rix 512 j k) := by
  simp only [Host.dotGeneral]
  rw [Ideal.dotGeneral_apply, ← Equiv.sum_comp (ValueIdx.contrEquiv1 (dot_S50000x512_S512x128_S50000x128_1_0_0_1_n_n) 512 rfl rfl).symm]
  refine Finset.sum_congr rfl fun k _ => ?_
  have hk := ValueIdx.contrEquiv1_symm_val (dot_S50000x512_S512x128_S50000x128_1_0_0_1_n_n) 512 rfl rfl k
  have el : (dot_S50000x512_S512x128_S50000x128_1_0_0_1_n_n).lhsIdx j ((ValueIdx.contrEquiv1 (dot_S50000x512_S512x128_S50000x128_1_0_0_1_n_n) 512 rfl rfl).symm k) = lix 512 j k := funext fun a => Fin.ext (by
    match a with
    | ⟨0, _⟩ => exact dot1_lhs_0 _ _
    | ⟨1, _⟩ => exact (dot1_lhs_1 _ _).trans hk)
  have er : (dot_S50000x512_S512x128_S50000x128_1_0_0_1_n_n).rhsIdx j ((ValueIdx.contrEquiv1 (dot_S50000x512_S512x128_S50000x128_1_0_0_1_n_n) 512 rfl rfl).symm k) = rix 512 j k := funext fun a => Fin.ext (by
    match a with
    | ⟨0, _⟩ => exact (dot1_rhs_0 _ _).trans hk
    | ⟨1, _⟩ => exact dot1_rhs_1 _ _)
  rw [el, er]

end First

section Second

theorem dot2_lhs_0 (j : S50000x64.Idx) (q : (dot_S50000x128_S128x64_S50000x64_1_0_0_1_n_n).contr.Idx) : ((dot_S50000x128_S128x64_S50000x64_1_0_0_1_n_n).lhsIdx j q 0).val = (j 0).val := by
  unfold DotDims.lhsIdx
  rw [dif_neg (show ¬(0 : Fin S50000x128.rank) ∈ (dot_S50000x128_S128x64_S50000x64_1_0_0_1_n_n).lhsBatch by decide), dif_pos (show (0 : Fin S50000x128.rank) ∈ (dot_S50000x128_S128x64_S50000x64_1_0_0_1_n_n).lhsNonContracting by decide)]
  rfl
theorem dot2_lhs_1 (j : S50000x64.Idx) (q : (dot_S50000x128_S128x64_S50000x64_1_0_0_1_n_n).contr.Idx) : ((dot_S50000x128_S128x64_S50000x64_1_0_0_1_n_n).lhsIdx j q 1).val = (q ⟨0, by decide⟩).val :=
  (dot_S50000x128_S128x64_S50000x64_1_0_0_1_n_n).lhsIdx_val_of_single rfl j q
theorem dot2_rhs_0 (j : S50000x64.Idx) (q : (dot_S50000x128_S128x64_S50000x64_1_0_0_1_n_n).contr.Idx) : ((dot_S50000x128_S128x64_S50000x64_1_0_0_1_n_n).rhsIdx j q 0).val = (q ⟨0, by decide⟩).val :=
  (dot_S50000x128_S128x64_S50000x64_1_0_0_1_n_n).rhsIdx_val_of_single rfl j q
theorem dot2_rhs_1 (j : S50000x64.Idx) (q : (dot_S50000x128_S128x64_S50000x64_1_0_0_1_n_n).contr.Idx) : ((dot_S50000x128_S128x64_S50000x64_1_0_0_1_n_n).rhsIdx j q 1).val = (j 1).val := by
  unfold DotDims.rhsIdx
  rw [dif_neg (show ¬(1 : Fin S128x64.rank) ∈ (dot_S50000x128_S128x64_S50000x64_1_0_0_1_n_n).rhsBatch by decide), dif_pos (show (1 : Fin S128x64.rank) ∈ (dot_S50000x128_S128x64_S50000x64_1_0_0_1_n_n).rhsNonContracting by decide)]
  rfl

/-- The host's second dense product at entry (p, q): the sum over k of x(p, k) · w(k, q). -/
theorem dot2_apply (x : S50000x128.Idx → EReal) (w : S128x64.Idx → EReal) (j : S50000x64.Idx) :
    Host.dotGeneral (F := Ideal) (φ₁ := .f32) (φ₂ := .f32) (dot_S50000x128_S128x64_S50000x64_1_0_0_1_n_n) none x w j = ∑ k : Fin 128, x (lix 128 j k) * w (rix 128 j k) := by
  simp only [Host.dotGeneral]
  rw [Ideal.dotGeneral_apply, ← Equiv.sum_comp (ValueIdx.contrEquiv1 (dot_S50000x128_S128x64_S50000x64_1_0_0_1_n_n) 128 rfl rfl).symm]
  refine Finset.sum_congr rfl fun k _ => ?_
  have hk := ValueIdx.contrEquiv1_symm_val (dot_S50000x128_S128x64_S50000x64_1_0_0_1_n_n) 128 rfl rfl k
  have el : (dot_S50000x128_S128x64_S50000x64_1_0_0_1_n_n).lhsIdx j ((ValueIdx.contrEquiv1 (dot_S50000x128_S128x64_S50000x64_1_0_0_1_n_n) 128 rfl rfl).symm k) = lix 128 j k := funext fun a => Fin.ext (by
    match a with
    | ⟨0, _⟩ => exact dot2_lhs_0 _ _
    | ⟨1, _⟩ => exact (dot2_lhs_1 _ _).trans hk)
  have er : (dot_S50000x128_S128x64_S50000x64_1_0_0_1_n_n).rhsIdx j ((ValueIdx.contrEquiv1 (dot_S50000x128_S128x64_S50000x64_1_0_0_1_n_n) 128 rfl rfl).symm k) = rix 128 j k := funext fun a => Fin.ext (by
    match a with
    | ⟨0, _⟩ => exact (dot2_rhs_0 _ _).trans hk
    | ⟨1, _⟩ => exact dot2_rhs_1 _ _)
  rw [el, er]

end Second

/-- The row-wise inner products of two [100000, 64] matrices, as a vector. -/
def laneDots (a b : S100000x64.Idx → EReal) : S100000.Idx → EReal :=
  fun i => ∑ k : Fin 64, a (lane 64 i k) * b (lane 64 i k)

/-- The host's sum along the lanes of the entrywise product of two matrices, started from the zero constant: at
    row e, the sum over k of a(e, k) · b(e, k). -/
theorem laneSum_apply (a b : S100000x64.Idx → EReal) (i : S100000.Idx) :
    Host.reduceAdd (F := Ideal) (φ := .f32) (mulf (F := Ideal) (s := S100000x64) (φ := .f32) a b) (constant S_ .f32 0x00000000#32) reducesTo_S100000x64_S100000_d1 h_S_ i
      = laneDots a b i := by
  show _ = ∑ k : Fin 64, (mulf (F := Ideal) (s := S100000x64) (φ := .f32) a b) (lane 64 i k)
  generalize mulf (F := Ideal) (s := S100000x64) (φ := .f32) a b = y
  simp only [Host.reduceAdd, Ideal.hostReduceAdd_def]
  rw [Ideal.hostReduceAdd_single reducesTo_S100000x64_S100000_d1 (by decide)]
  refine (congrArg (· + _) (show (constant (F := Ideal) S_ .f32 0x00000000#32) (Shape.Idx.first h_S_) = (0 : EReal) from Ideal.ofBits_zero_f32)).trans ?_
  rw [zero_add]
  refine Finset.sum_congr rfl fun k _ => ?_
  exact congrArg y (funext fun a => Fin.ext (by match a with | ⟨0, _⟩ => rfl | ⟨1, _⟩ => rfl))

end Cert.ReferenceIdeal.Products

end
-- ==== Proof.HostStretches.lean ====
/-
  The host operations between the launches are the same operations in the two programs.  Each stretch of them is
  compared here once: run from buffers that agree on the stretch's inputs, the kernel's host program and the
  reference leave buffers that agree on the stretch's outputs — both sides are the same expression of the inputs,
  operation by operation, so once the inputs are identified nothing is left to prove.  A buffer the stretch does
  not write is carried along unchanged on both sides.
-/
import proofs.«139701_j12017318494615_1_alg».proof.Proof.Gen.KernelIdeal.Launch
import proofs.«139701_j12017318494615_1_alg».proof.Proof.RefRun

set_option maxRecDepth 16384

noncomputable section

namespace Cert.HostStretches

open Idealize.ShloMosaic Idealize.ShloMosaic.TcCoe Idealize.ShloMosaic.StableHlo

/-- Reads a buffer after an operation as the operation's value, if the operation writes it, and as its earlier contents
    otherwise, wherever such a read is left — also inside the operand list of a join. -/
macro "finish_results" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

variable {F : FTy → Type} [FloatOps F]

set_option maxHeartbeats 8000000 in
/-- The edge lists with the self loops appended, the degrees and what the weights select between: functions of the edge list alone.  From buffers that agree on what the stretch reads (and on what it only carries along) the two
    programs' stretches leave buffers that agree on what it writes (and carries). -/
theorem stretch0 (VK : Valuation Cert.KernelIdeal.τ Cert.KernelIdeal.sig (Elt F)) (VR : Valuation Cert.ReferenceIdeal.τ Cert.ReferenceIdeal.sig (Elt F))
    (h_main_arg1 : VK (Proc.devRef .tc Cert.KernelIdeal.main_arg1) = VR (Proc.devRef .tc Cert.ReferenceIdeal.main_arg1))
    (h_main_arg0 : VK (Proc.devRef .tc Cert.KernelIdeal.main_arg0) = VR (Proc.devRef .tc Cert.ReferenceIdeal.main_arg0))
    (h_main_arg2 : VK (Proc.devRef .tc Cert.KernelIdeal.main_arg2) = VR (Proc.devRef .tc Cert.ReferenceIdeal.main_arg2))
    (h_main_arg3 : VK (Proc.devRef .tc Cert.KernelIdeal.main_arg3) = VR (Proc.devRef .tc Cert.ReferenceIdeal.main_arg3))
    (h_main_arg4 : VK (Proc.devRef .tc Cert.KernelIdeal.main_arg4) = VR (Proc.devRef .tc Cert.ReferenceIdeal.main_arg4))
    (h_main_arg5 : VK (Proc.devRef .tc Cert.KernelIdeal.main_arg5) = VR (Proc.devRef .tc Cert.ReferenceIdeal.main_arg5))
    (h_main_arg6 : VK (Proc.devRef .tc Cert.KernelIdeal.main_arg6) = VR (Proc.devRef .tc Cert.ReferenceIdeal.main_arg6)) :
    (after Cert.KernelIdeal.Gen.hostOps0 VK (Proc.devRef .tc Cert.KernelIdeal.main_v1) = after Cert.ReferenceIdeal.RefRun.rA0 VR (Proc.devRef .tc Cert.ReferenceIdeal.main_v1))
    ∧ (after Cert.KernelIdeal.Gen.hostOps0 VK (Proc.devRef .tc Cert.KernelIdeal.main_v3) = after Cert.ReferenceIdeal.RefRun.rA0 VR (Proc.devRef .tc Cert.ReferenceIdeal.main_v3))
    ∧ (after Cert.KernelIdeal.Gen.hostOps0 VK (Proc.devRef .tc Cert.KernelIdeal.main_v5) = after Cert.ReferenceIdeal.RefRun.rA0 VR (Proc.devRef .tc Cert.ReferenceIdeal.main_v5))
    ∧ (after Cert.KernelIdeal.Gen.hostOps0 VK (Proc.devRef .tc Cert.KernelIdeal.main_v6) = after Cert.ReferenceIdeal.RefRun.rA0 VR (Proc.devRef .tc Cert.ReferenceIdeal.main_v6))
    ∧ (after Cert.KernelIdeal.Gen.hostOps0 VK (Proc.devRef .tc Cert.KernelIdeal.main_v12) = after Cert.ReferenceIdeal.RefRun.rA0 VR (Proc.devRef .tc Cert.ReferenceIdeal.main_v12))
    ∧ (after Cert.KernelIdeal.Gen.hostOps0 VK (Proc.devRef .tc Cert.KernelIdeal.main_v13) = after Cert.ReferenceIdeal.RefRun.rA0 VR (Proc.devRef .tc Cert.ReferenceIdeal.main_v13))
    ∧ (after Cert.KernelIdeal.Gen.hostOps0 VK (Proc.devRef .tc Cert.KernelIdeal.main_cst_2) = after Cert.ReferenceIdeal.RefRun.rA0 VR (Proc.devRef .tc Cert.ReferenceIdeal.main_cst_2))
    ∧ (after Cert.KernelIdeal.Gen.hostOps0 VK (Proc.devRef .tc Cert.KernelIdeal.main_arg0) = after Cert.ReferenceIdeal.RefRun.rA0 VR (Proc.devRef .tc Cert.ReferenceIdeal.main_arg0))
    ∧ (after Cert.KernelIdeal.Gen.hostOps0 VK (Proc.devRef .tc Cert.KernelIdeal.main_arg2) = after Cert.ReferenceIdeal.RefRun.rA0 VR (Proc.devRef .tc Cert.ReferenceIdeal.main_arg2))
    ∧ (after Cert.KernelIdeal.Gen.hostOps0 VK (Proc.devRef .tc Cert.KernelIdeal.main_arg3) = after Cert.ReferenceIdeal.RefRun.rA0 VR (Proc.devRef .tc Cert.ReferenceIdeal.main_arg3))
    ∧ (after Cert.KernelIdeal.Gen.hostOps0 VK (Proc.devRef .tc Cert.KernelIdeal.main_arg4) = after Cert.ReferenceIdeal.RefRun.rA0 VR (Proc.devRef .tc Cert.ReferenceIdeal.main_arg4))
    ∧ (after Cert.KernelIdeal.Gen.hostOps0 VK (Proc.devRef .tc Cert.KernelIdeal.main_arg5) = after Cert.ReferenceIdeal.RefRun.rA0 VR (Proc.devRef .tc Cert.ReferenceIdeal.main_arg5))
    ∧ (after Cert.KernelIdeal.Gen.hostOps0 VK (Proc.devRef .tc Cert.KernelIdeal.main_arg6) = after Cert.ReferenceIdeal.RefRun.rA0 VR (Proc.devRef .tc Cert.ReferenceIdeal.main_arg6)) := by
  refine ⟨?_, ?_, ?_, ?_, ?_, ?_, ?_, ?_, ?_, ?_, ?_, ?_, ?_⟩
  all_goals
    after_results_simp
    finish_results
    try rw [h_main_arg1]
    try rw [h_main_arg0]
    try rw [h_main_arg2]
    try rw [h_main_arg3]
    try rw [h_main_arg4]
    try rw [h_main_arg5]
    try rw [h_main_arg6]
    try rfl

set_option maxHeartbeats 8000000 in
/-- The inverse square roots of the degrees where positive, zero elsewhere.  From buffers that agree on what the stretch reads (and on what it only carries along) the two
    programs' stretches leave buffers that agree on what it writes (and carries). -/
theorem stretch0_1 (VK : Valuation Cert.KernelIdeal.τ Cert.KernelIdeal.sig (Elt F)) (VR : Valuation Cert.ReferenceIdeal.τ Cert.ReferenceIdeal.sig (Elt F))
    (h_main_cst_2 : VK (Proc.devRef .tc Cert.KernelIdeal.main_cst_2) = VR (Proc.devRef .tc Cert.ReferenceIdeal.main_cst_2))
    (h_main_v12 : VK (Proc.devRef .tc Cert.KernelIdeal.main_v12) = VR (Proc.devRef .tc Cert.ReferenceIdeal.main_v12))
    (h_main_v13 : VK (Proc.devRef .tc Cert.KernelIdeal.main_v13) = VR (Proc.devRef .tc Cert.ReferenceIdeal.main_v13))
    (h_main_v1 : VK (Proc.devRef .tc Cert.KernelIdeal.main_v1) = VR (Proc.devRef .tc Cert.ReferenceIdeal.main_v1))
    (h_main_v3 : VK (Proc.devRef .tc Cert.KernelIdeal.main_v3) = VR (Proc.devRef .tc Cert.ReferenceIdeal.main_v3))
    (h_main_v5 : VK (Proc.devRef .tc Cert.KernelIdeal.main_v5) = VR (Proc.devRef .tc Cert.ReferenceIdeal.main_v5))
    (h_main_v6 : VK (Proc.devRef .tc Cert.KernelIdeal.main_v6) = VR (Proc.devRef .tc Cert.ReferenceIdeal.main_v6))
    (h_main_arg0 : VK (Proc.devRef .tc Cert.KernelIdeal.main_arg0) = VR (Proc.devRef .tc Cert.ReferenceIdeal.main_arg0))
    (h_main_arg2 : VK (Proc.devRef .tc Cert.KernelIdeal.main_arg2) = VR (Proc.devRef .tc Cert.ReferenceIdeal.main_arg2))
    (h_main_arg3 : VK (Proc.devRef .tc Cert.KernelIdeal.main_arg3) = VR (Proc.devRef .tc Cert.ReferenceIdeal.main_arg3))
    (h_main_arg4 : VK (Proc.devRef .tc Cert.KernelIdeal.main_arg4) = VR (Proc.devRef .tc Cert.ReferenceIdeal.main_arg4))
    (h_main_arg5 : VK (Proc.devRef .tc Cert.KernelIdeal.main_arg5) = VR (Proc.devRef .tc Cert.ReferenceIdeal.main_arg5))
    (h_main_arg6 : VK (Proc.devRef .tc Cert.KernelIdeal.main_arg6) = VR (Proc.devRef .tc Cert.ReferenceIdeal.main_arg6)) :
    (after Cert.KernelIdeal.Gen.hostOps0_1 VK (Proc.devRef .tc Cert.KernelIdeal.main_v14) = after Cert.ReferenceIdeal.RefRun.rA1 VR (Proc.devRef .tc Cert.ReferenceIdeal.main_v14))
    ∧ (after Cert.KernelIdeal.Gen.hostOps0_1 VK (Proc.devRef .tc Cert.KernelIdeal.main_v1) = after Cert.ReferenceIdeal.RefRun.rA1 VR (Proc.devRef .tc Cert.ReferenceIdeal.main_v1))
    ∧ (after Cert.KernelIdeal.Gen.hostOps0_1 VK (Proc.devRef .tc Cert.KernelIdeal.main_v3) = after Cert.ReferenceIdeal.RefRun.rA1 VR (Proc.devRef .tc Cert.ReferenceIdeal.main_v3))
    ∧ (after Cert.KernelIdeal.Gen.hostOps0_1 VK (Proc.devRef .tc Cert.KernelIdeal.main_v5) = after Cert.ReferenceIdeal.RefRun.rA1 VR (Proc.devRef .tc Cert.ReferenceIdeal.main_v5))
    ∧ (after Cert.KernelIdeal.Gen.hostOps0_1 VK (Proc.devRef .tc Cert.KernelIdeal.main_v6) = after Cert.ReferenceIdeal.RefRun.rA1 VR (Proc.devRef .tc Cert.ReferenceIdeal.main_v6))
    ∧ (after Cert.KernelIdeal.Gen.hostOps0_1 VK (Proc.devRef .tc Cert.KernelIdeal.main_arg0) = after Cert.ReferenceIdeal.RefRun.rA1 VR (Proc.devRef .tc Cert.ReferenceIdeal.main_arg0))
    ∧ (after Cert.KernelIdeal.Gen.hostOps0_1 VK (Proc.devRef .tc Cert.KernelIdeal.main_arg2) = after Cert.ReferenceIdeal.RefRun.rA1 VR (Proc.devRef .tc Cert.ReferenceIdeal.main_arg2))
    ∧ (after Cert.KernelIdeal.Gen.hostOps0_1 VK (Proc.devRef .tc Cert.KernelIdeal.main_arg3) = after Cert.ReferenceIdeal.RefRun.rA1 VR (Proc.devRef .tc Cert.ReferenceIdeal.main_arg3))
    ∧ (after Cert.KernelIdeal.Gen.hostOps0_1 VK (Proc.devRef .tc Cert.KernelIdeal.main_arg4) = after Cert.ReferenceIdeal.RefRun.rA1 VR (Proc.devRef .tc Cert.ReferenceIdeal.main_arg4))
    ∧ (after Cert.KernelIdeal.Gen.hostOps0_1 VK (Proc.devRef .tc Cert.KernelIdeal.main_arg5) = after Cert.ReferenceIdeal.RefRun.rA1 VR (Proc.devRef .tc Cert.ReferenceIdeal.main_arg5))
    ∧ (after Cert.KernelIdeal.Gen.hostOps0_1 VK (Proc.devRef .tc Cert.KernelIdeal.main_arg6) = after Cert.ReferenceIdeal.RefRun.rA1 VR (Proc.devRef .tc Cert.ReferenceIdeal.main_arg6)) := by
  refine ⟨?_, ?_, ?_, ?_, ?_, ?_, ?_, ?_, ?_, ?_, ?_⟩
  all_goals
    after_results_simp
    finish_results
    try rw [h_main_cst_2]
    try rw [h_main_v12]
    try rw [h_main_v13]
    try rw [h_main_v1]
    try rw [h_main_v3]
    try rw [h_main_v5]
    try rw [h_main_v6]
    try rw [h_main_arg0]
    try rw [h_main_arg2]
    try rw [h_main_arg3]
    try rw [h_main_arg4]
    try rw [h_main_arg5]
    try rw [h_main_arg6]
    try rfl

set_option maxHeartbeats 8000000 in
/-- The first layer's edge weights.  From buffers that agree on what the stretch reads (and on what it only carries along) the two
    programs' stretches leave buffers that agree on what it writes (and carries). -/
theorem stretch0_2 (VK : Valuation Cert.KernelIdeal.τ Cert.KernelIdeal.sig (Elt F)) (VR : Valuation Cert.ReferenceIdeal.τ Cert.ReferenceIdeal.sig (Elt F))
    (h_main_v5 : VK (Proc.devRef .tc Cert.KernelIdeal.main_v5) = VR (Proc.devRef .tc Cert.ReferenceIdeal.main_v5))
    (h_main_v6 : VK (Proc.devRef .tc Cert.KernelIdeal.main_v6) = VR (Proc.devRef .tc Cert.ReferenceIdeal.main_v6))
    (h_main_v14 : VK (Proc.devRef .tc Cert.KernelIdeal.main_v14) = VR (Proc.devRef .tc Cert.ReferenceIdeal.main_v14))
    (h_main_v1 : VK (Proc.devRef .tc Cert.KernelIdeal.main_v1) = VR (Proc.devRef .tc Cert.ReferenceIdeal.main_v1))
    (h_main_v3 : VK (Proc.devRef .tc Cert.KernelIdeal.main_v3) = VR (Proc.devRef .tc Cert.ReferenceIdeal.main_v3))
    (h_main_arg0 : VK (Proc.devRef .tc Cert.KernelIdeal.main_arg0) = VR (Proc.devRef .tc Cert.ReferenceIdeal.main_arg0))
    (h_main_arg2 : VK (Proc.devRef .tc Cert.KernelIdeal.main_arg2) = VR (Proc.devRef .tc Cert.ReferenceIdeal.main_arg2))
    (h_main_arg3 : VK (Proc.devRef .tc Cert.KernelIdeal.main_arg3) = VR (Proc.devRef .tc Cert.ReferenceIdeal.main_arg3))
    (h_main_arg4 : VK (Proc.devRef .tc Cert.KernelIdeal.main_arg4) = VR (Proc.devRef .tc Cert.ReferenceIdeal.main_arg4))
    (h_main_arg5 : VK (Proc.devRef .tc Cert.KernelIdeal.main_arg5) = VR (Proc.devRef .tc Cert.ReferenceIdeal.main_arg5))
    (h_main_arg6 : VK (Proc.devRef .tc Cert.KernelIdeal.main_arg6) = VR (Proc.devRef .tc Cert.ReferenceIdeal.main_arg6)) :
    (after Cert.KernelIdeal.Gen.hostOps0_2 VK (Proc.devRef .tc Cert.KernelIdeal.main_v29) = after Cert.ReferenceIdeal.RefRun.rA2 VR (Proc.devRef .tc Cert.ReferenceIdeal.main_v29))
    ∧ (after Cert.KernelIdeal.Gen.hostOps0_2 VK (Proc.devRef .tc Cert.KernelIdeal.main_v1) = after Cert.ReferenceIdeal.RefRun.rA2 VR (Proc.devRef .tc Cert.ReferenceIdeal.main_v1))
    ∧ (after Cert.KernelIdeal.Gen.hostOps0_2 VK (Proc.devRef .tc Cert.KernelIdeal.main_v3) = after Cert.ReferenceIdeal.RefRun.rA2 VR (Proc.devRef .tc Cert.ReferenceIdeal.main_v3))
    ∧ (after Cert.KernelIdeal.Gen.hostOps0_2 VK (Proc.devRef .tc Cert.KernelIdeal.main_v5) = after Cert.ReferenceIdeal.RefRun.rA2 VR (Proc.devRef .tc Cert.ReferenceIdeal.main_v5))
    ∧ (after Cert.KernelIdeal.Gen.hostOps0_2 VK (Proc.devRef .tc Cert.KernelIdeal.main_v6) = after Cert.ReferenceIdeal.RefRun.rA2 VR (Proc.devRef .tc Cert.ReferenceIdeal.main_v6))
    ∧ (after Cert.KernelIdeal.Gen.hostOps0_2 VK (Proc.devRef .tc Cert.KernelIdeal.main_arg0) = after Cert.ReferenceIdeal.RefRun.rA2 VR (Proc.devRef .tc Cert.ReferenceIdeal.main_arg0))
    ∧ (after Cert.KernelIdeal.Gen.hostOps0_2 VK (Proc.devRef .tc Cert.KernelIdeal.main_arg2) = after Cert.ReferenceIdeal.RefRun.rA2 VR (Proc.devRef .tc Cert.ReferenceIdeal.main_arg2))
    ∧ (after Cert.KernelIdeal.Gen.hostOps0_2 VK (Proc.devRef .tc Cert.KernelIdeal.main_arg3) = after Cert.ReferenceIdeal.RefRun.rA2 VR (Proc.devRef .tc Cert.ReferenceIdeal.main_arg3))
    ∧ (after Cert.KernelIdeal.Gen.hostOps0_2 VK (Proc.devRef .tc Cert.KernelIdeal.main_arg4) = after Cert.ReferenceIdeal.RefRun.rA2 VR (Proc.devRef .tc Cert.ReferenceIdeal.main_arg4))
    ∧ (after Cert.KernelIdeal.Gen.hostOps0_2 VK (Proc.devRef .tc Cert.KernelIdeal.main_arg5) = after Cert.ReferenceIdeal.RefRun.rA2 VR (Proc.devRef .tc Cert.ReferenceIdeal.main_arg5))
    ∧ (after Cert.KernelIdeal.Gen.hostOps0_2 VK (Proc.devRef .tc Cert.KernelIdeal.main_arg6) = after Cert.ReferenceIdeal.RefRun.rA2 VR (Proc.devRef .tc Cert.ReferenceIdeal.main_arg6)) := by
  refine ⟨?_, ?_, ?_, ?_, ?_, ?_, ?_, ?_, ?_, ?_, ?_⟩
  all_goals
    after_results_simp
    finish_results
    try rw [h_main_v5]
    try rw [h_main_v6]
    try rw [h_main_v14]
    try rw [h_main_v1]
    try rw [h_main_v3]
    try rw [h_main_arg0]
    try rw [h_main_arg2]
    try rw [h_main_arg3]
    try rw [h_main_arg4]
    try rw [h_main_arg5]
    try rw [h_main_arg6]
    try rfl

set_option maxHeartbeats 8000000 in
/-- The first layer after its product: gather, scale, scatter-add, bias.  From buffers that agree on what the stretch reads (and on what it only carries along) the two
    programs' stretches leave buffers that agree on what it writes (and carries). -/
theorem stretch1 (VK : Valuation Cert.KernelIdeal.τ Cert.KernelIdeal.sig (Elt F)) (VR : Valuation Cert.ReferenceIdeal.τ Cert.ReferenceIdeal.sig (Elt F))
    (h_main_v5 : VK (Proc.devRef .tc Cert.KernelIdeal.main_v5) = VR (Proc.devRef .tc Cert.ReferenceIdeal.main_v5))
    (h_main_v6 : VK (Proc.devRef .tc Cert.KernelIdeal.main_v6) = VR (Proc.devRef .tc Cert.ReferenceIdeal.main_v6))
    (h_main_v29 : VK (Proc.devRef .tc Cert.KernelIdeal.main_v29) = VR (Proc.devRef .tc Cert.ReferenceIdeal.main_v29))
    (h_main_v30 : VK (Proc.devRef .tc Cert.KernelIdeal.main_v30) = VR (Proc.devRef .tc Cert.ReferenceIdeal.main_v30))
    (h_main_arg4 : VK (Proc.devRef .tc Cert.KernelIdeal.main_arg4) = VR (Proc.devRef .tc Cert.ReferenceIdeal.main_arg4))
    (h_main_v1 : VK (Proc.devRef .tc Cert.KernelIdeal.main_v1) = VR (Proc.devRef .tc Cert.ReferenceIdeal.main_v1))
    (h_main_v3 : VK (Proc.devRef .tc Cert.KernelIdeal.main_v3) = VR (Proc.devRef .tc Cert.ReferenceIdeal.main_v3))
    (h_main_arg2 : VK (Proc.devRef .tc Cert.KernelIdeal.main_arg2) = VR (Proc.devRef .tc Cert.ReferenceIdeal.main_arg2))
    (h_main_arg5 : VK (Proc.devRef .tc Cert.KernelIdeal.main_arg5) = VR (Proc.devRef .tc Cert.ReferenceIdeal.main_arg5))
    (h_main_arg6 : VK (Proc.devRef .tc Cert.KernelIdeal.main_arg6) = VR (Proc.devRef .tc Cert.ReferenceIdeal.main_arg6)) :
    (after Cert.KernelIdeal.Gen.hostOps1 VK (Proc.devRef .tc Cert.KernelIdeal.main_v46) = after Cert.ReferenceIdeal.RefRun.rB0 VR (Proc.devRef .tc Cert.ReferenceIdeal.main_v46))
    ∧ (after Cert.KernelIdeal.Gen.hostOps1 VK (Proc.devRef .tc Cert.KernelIdeal.main_v1) = after Cert.ReferenceIdeal.RefRun.rB0 VR (Proc.devRef .tc Cert.ReferenceIdeal.main_v1))
    ∧ (after Cert.KernelIdeal.Gen.hostOps1 VK (Proc.devRef .tc Cert.KernelIdeal.main_v3) = after Cert.ReferenceIdeal.RefRun.rB0 VR (Proc.devRef .tc Cert.ReferenceIdeal.main_v3))
    ∧ (after Cert.KernelIdeal.Gen.hostOps1 VK (Proc.devRef .tc Cert.KernelIdeal.main_arg2) = after Cert.ReferenceIdeal.RefRun.rB0 VR (Proc.devRef .tc Cert.ReferenceIdeal.main_arg2))
    ∧ (after Cert.KernelIdeal.Gen.hostOps1 VK (Proc.devRef .tc Cert.KernelIdeal.main_arg5) = after Cert.ReferenceIdeal.RefRun.rB0 VR (Proc.devRef .tc Cert.ReferenceIdeal.main_arg5))
    ∧ (after Cert.KernelIdeal.Gen.hostOps1 VK (Proc.devRef .tc Cert.KernelIdeal.main_arg6) = after Cert.ReferenceIdeal.RefRun.rB0 VR (Proc.devRef .tc Cert.ReferenceIdeal.main_arg6)) := by
  refine ⟨?_, ?_, ?_, ?_, ?_, ?_⟩
  all_goals
    after_results_simp
    finish_results
    try rw [h_main_v5]
    try rw [h_main_v6]
    try rw [h_main_v29]
    try rw [h_main_v30]
    try rw [h_main_arg4]
    try rw [h_main_v1]
    try rw [h_main_v3]
    try rw [h_main_arg2]
    try rw [h_main_arg5]
    try rw [h_main_arg6]
    try rfl

set_option maxHeartbeats 8000000 in
/-- The rectifier.  From buffers that agree on what the stretch reads (and on what it only carries along) the two
    programs' stretches leave buffers that agree on what it writes (and carries). -/
theorem stretch1_1 (VK : Valuation Cert.KernelIdeal.τ Cert.KernelIdeal.sig (Elt F)) (VR : Valuation Cert.ReferenceIdeal.τ Cert.ReferenceIdeal.sig (Elt F))
    (h_main_v46 : VK (Proc.devRef .tc Cert.KernelIdeal.main_v46) = VR (Proc.devRef .tc Cert.ReferenceIdeal.main_v46))
    (h_main_v1 : VK (Proc.devRef .tc Cert.KernelIdeal.main_v1) = VR (Proc.devRef .tc Cert.ReferenceIdeal.main_v1))
    (h_main_v3 : VK (Proc.devRef .tc Cert.KernelIdeal.main_v3) = VR (Proc.devRef .tc Cert.ReferenceIdeal.main_v3))
    (h_main_arg2 : VK (Proc.devRef .tc Cert.KernelIdeal.main_arg2) = VR (Proc.devRef .tc Cert.ReferenceIdeal.main_arg2))
    (h_main_arg5 : VK (Proc.devRef .tc Cert.KernelIdeal.main_arg5) = VR (Proc.devRef .tc Cert.ReferenceIdeal.main_arg5))
    (h_main_arg6 : VK (Proc.devRef .tc Cert.KernelIdeal.main_arg6) = VR (Proc.devRef .tc Cert.ReferenceIdeal.main_arg6)) :
    (after Cert.KernelIdeal.Gen.hostOps1_1 VK (Proc.devRef .tc Cert.KernelIdeal.main_v47) = after Cert.ReferenceIdeal.RefRun.rB1 VR (Proc.devRef .tc Cert.ReferenceIdeal.main_v47))
    ∧ (after Cert.KernelIdeal.Gen.hostOps1_1 VK (Proc.devRef .tc Cert.KernelIdeal.main_v1) = after Cert.ReferenceIdeal.RefRun.rB1 VR (Proc.devRef .tc Cert.ReferenceIdeal.main_v1))
    ∧ (after Cert.KernelIdeal.Gen.hostOps1_1 VK (Proc.devRef .tc Cert.KernelIdeal.main_v3) = after Cert.ReferenceIdeal.RefRun.rB1 VR (Proc.devRef .tc Cert.ReferenceIdeal.main_v3))
    ∧ (after Cert.KernelIdeal.Gen.hostOps1_1 VK (Proc.devRef .tc Cert.KernelIdeal.main_arg2) = after Cert.ReferenceIdeal.RefRun.rB1 VR (Proc.devRef .tc Cert.ReferenceIdeal.main_arg2))
    ∧ (after Cert.KernelIdeal.Gen.hostOps1_1 VK (Proc.devRef .tc Cert.KernelIdeal.main_arg5) = after Cert.ReferenceIdeal.RefRun.rB1 VR (Proc.devRef .tc Cert.ReferenceIdeal.main_arg5))
    ∧ (after Cert.KernelIdeal.Gen.hostOps1_1 VK (Proc.devRef .tc Cert.KernelIdeal.main_arg6) = after Cert.ReferenceIdeal.RefRun.rB1 VR (Proc.devRef .tc Cert.ReferenceIdeal.main_arg6)) := by
  refine ⟨?_, ?_, ?_, ?_, ?_, ?_⟩
  all_goals
    after_results_simp
    finish_results
    try rw [h_main_v46]
    try rw [h_main_v1]
    try rw [h_main_v3]
    try rw [h_main_arg2]
    try rw [h_main_arg5]
    try rw [h_main_arg6]
    try rfl

set_option maxHeartbeats 8000000 in
/-- The second layer's edge lists, degrees and what its weights select between.  From buffers that agree on what the stretch reads (and on what it only carries along) the two
    programs' stretches leave buffers that agree on what it writes (and carries). -/
theorem stretch1_2 (VK : Valuation Cert.KernelIdeal.τ Cert.KernelIdeal.sig (Elt F)) (VR : Valuation Cert.ReferenceIdeal.τ Cert.ReferenceIdeal.sig (Elt F))
    (h_main_v1 : VK (Proc.devRef .tc Cert.KernelIdeal.main_v1) = VR (Proc.devRef .tc Cert.ReferenceIdeal.main_v1))
    (h_main_v3 : VK (Proc.devRef .tc Cert.KernelIdeal.main_v3) = VR (Proc.devRef .tc Cert.ReferenceIdeal.main_v3))
    (h_main_v47 : VK (Proc.devRef .tc Cert.KernelIdeal.main_v47) = VR (Proc.devRef .tc Cert.ReferenceIdeal.main_v47))
    (h_main_arg2 : VK (Proc.devRef .tc Cert.KernelIdeal.main_arg2) = VR (Proc.devRef .tc Cert.ReferenceIdeal.main_arg2))
    (h_main_arg5 : VK (Proc.devRef .tc Cert.KernelIdeal.main_arg5) = VR (Proc.devRef .tc Cert.ReferenceIdeal.main_arg5))
    (h_main_arg6 : VK (Proc.devRef .tc Cert.KernelIdeal.main_arg6) = VR (Proc.devRef .tc Cert.ReferenceIdeal.main_arg6)) :
    (after Cert.KernelIdeal.Gen.hostOps1_2 VK (Proc.devRef .tc Cert.KernelIdeal.main_v49) = after Cert.ReferenceIdeal.RefRun.rB2 VR (Proc.devRef .tc Cert.ReferenceIdeal.main_v49))
    ∧ (after Cert.KernelIdeal.Gen.hostOps1_2 VK (Proc.devRef .tc Cert.KernelIdeal.main_v50) = after Cert.ReferenceIdeal.RefRun.rB2 VR (Proc.devRef .tc Cert.ReferenceIdeal.main_v50))
    ∧ (after Cert.KernelIdeal.Gen.hostOps1_2 VK (Proc.devRef .tc Cert.KernelIdeal.main_v56) = after Cert.ReferenceIdeal.RefRun.rB2 VR (Proc.devRef .tc Cert.ReferenceIdeal.main_v56))
    ∧ (after Cert.KernelIdeal.Gen.hostOps1_2 VK (Proc.devRef .tc Cert.KernelIdeal.main_v57) = after Cert.ReferenceIdeal.RefRun.rB2 VR (Proc.devRef .tc Cert.ReferenceIdeal.main_v57))
    ∧ (after Cert.KernelIdeal.Gen.hostOps1_2 VK (Proc.devRef .tc Cert.KernelIdeal.main_cst_12) = after Cert.ReferenceIdeal.RefRun.rB2 VR (Proc.devRef .tc Cert.ReferenceIdeal.main_cst_12))
    ∧ (after Cert.KernelIdeal.Gen.hostOps1_2 VK (Proc.devRef .tc Cert.KernelIdeal.main_v47) = after Cert.ReferenceIdeal.RefRun.rB2 VR (Proc.devRef .tc Cert.ReferenceIdeal.main_v47))
    ∧ (after Cert.KernelIdeal.Gen.hostOps1_2 VK (Proc.devRef .tc Cert.KernelIdeal.main_arg2) = after Cert.ReferenceIdeal.RefRun.rB2 VR (Proc.devRef .tc Cert.ReferenceIdeal.main_arg2))
    ∧ (after Cert.KernelIdeal.Gen.hostOps1_2 VK (Proc.devRef .tc Cert.KernelIdeal.main_arg5) = after Cert.ReferenceIdeal.RefRun.rB2 VR (Proc.devRef .tc Cert.ReferenceIdeal.main_arg5))
    ∧ (after Cert.KernelIdeal.Gen.hostOps1_2 VK (Proc.devRef .tc Cert.KernelIdeal.main_arg6) = after Cert.ReferenceIdeal.RefRun.rB2 VR (Proc.devRef .tc Cert.ReferenceIdeal.main_arg6)) := by
  refine ⟨?_, ?_, ?_, ?_, ?_, ?_, ?_, ?_, ?_⟩
  all_goals
    after_results_simp
    finish_results
    try rw [h_main_v1]
    try rw [h_main_v3]
    try rw [h_main_v47]
    try rw [h_main_arg2]
    try rw [h_main_arg5]
    try rw [h_main_arg6]
    try rfl

set_option maxHeartbeats 8000000 in
/-- The second layer's inverse square roots of the degrees.  From buffers that agree on what the stretch reads (and on what it only carries along) the two
    programs' stretches leave buffers that agree on what it writes (and carries). -/
theorem stretch1_3 (VK : Valuation Cert.KernelIdeal.τ Cert.KernelIdeal.sig (Elt F)) (VR : Valuation Cert.ReferenceIdeal.τ Cert.ReferenceIdeal.sig (Elt F))
    (h_main_cst_12 : VK (Proc.devRef .tc Cert.KernelIdeal.main_cst_12) = VR (Proc.devRef .tc Cert.ReferenceIdeal.main_cst_12))
    (h_main_v56 : VK (Proc.devRef .tc Cert.KernelIdeal.main_v56) = VR (Proc.devRef .tc Cert.ReferenceIdeal.main_v56))
    (h_main_v57 : VK (Proc.devRef .tc Cert.KernelIdeal.main_v57) = VR (Proc.devRef .tc Cert.ReferenceIdeal.main_v57))
    (h_main_v47 : VK (Proc.devRef .tc Cert.KernelIdeal.main_v47) = VR (Proc.devRef .tc Cert.ReferenceIdeal.main_v47))
    (h_main_v49 : VK (Proc.devRef .tc Cert.KernelIdeal.main_v49) = VR (Proc.devRef .tc Cert.ReferenceIdeal.main_v49))
    (h_main_v50 : VK (Proc.devRef .tc Cert.KernelIdeal.main_v50) = VR (Proc.devRef .tc Cert.ReferenceIdeal.main_v50))
    (h_main_arg2 : VK (Proc.devRef .tc Cert.KernelIdeal.main_arg2) = VR (Proc.devRef .tc Cert.ReferenceIdeal.main_arg2))
    (h_main_arg5 : VK (Proc.devRef .tc Cert.KernelIdeal.main_arg5) = VR (Proc.devRef .tc Cert.ReferenceIdeal.main_arg5))
    (h_main_arg6 : VK (Proc.devRef .tc Cert.KernelIdeal.main_arg6) = VR (Proc.devRef .tc Cert.ReferenceIdeal.main_arg6)) :
    (after Cert.KernelIdeal.Gen.hostOps1_3 VK (Proc.devRef .tc Cert.KernelIdeal.main_v58) = after Cert.ReferenceIdeal.RefRun.rB3 VR (Proc.devRef .tc Cert.ReferenceIdeal.main_v58))
    ∧ (after Cert.KernelIdeal.Gen.hostOps1_3 VK (Proc.devRef .tc Cert.KernelIdeal.main_v47) = after Cert.ReferenceIdeal.RefRun.rB3 VR (Proc.devRef .tc Cert.ReferenceIdeal.main_v47))
    ∧ (after Cert.KernelIdeal.Gen.hostOps1_3 VK (Proc.devRef .tc Cert.KernelIdeal.main_v49) = after Cert.ReferenceIdeal.RefRun.rB3 VR (Proc.devRef .tc Cert.ReferenceIdeal.main_v49))
    ∧ (after Cert.KernelIdeal.Gen.hostOps1_3 VK (Proc.devRef .tc Cert.KernelIdeal.main_v50) = after Cert.ReferenceIdeal.RefRun.rB3 VR (Proc.devRef .tc Cert.ReferenceIdeal.main_v50))
    ∧ (after Cert.KernelIdeal.Gen.hostOps1_3 VK (Proc.devRef .tc Cert.KernelIdeal.main_arg2) = after Cert.ReferenceIdeal.RefRun.rB3 VR (Proc.devRef .tc Cert.ReferenceIdeal.main_arg2))
    ∧ (after Cert.KernelIdeal.Gen.hostOps1_3 VK (Proc.devRef .tc Cert.KernelIdeal.main_arg5) = after Cert.ReferenceIdeal.RefRun.rB3 VR (Proc.devRef .tc Cert.ReferenceIdeal.main_arg5))
    ∧ (after Cert.KernelIdeal.Gen.hostOps1_3 VK (Proc.devRef .tc Cert.KernelIdeal.main_arg6) = after Cert.ReferenceIdeal.RefRun.rB3 VR (Proc.devRef .tc Cert.ReferenceIdeal.main_arg6)) := by
  refine ⟨?_, ?_, ?_, ?_, ?_, ?_, ?_⟩
  all_goals
    after_results_simp
    finish_results
    try rw [h_main_cst_12]
    try rw [h_main_v56]
    try rw [h_main_v57]
    try rw [h_main_v47]
    try rw [h_main_v49]
    try rw [h_main_v50]
    try rw [h_main_arg2]
    try rw [h_main_arg5]
    try rw [h_main_arg6]
    try rfl

set_option maxHeartbeats 8000000 in
/-- The second layer's edge weights.  From buffers that agree on what the stretch reads (and on what it only carries along) the two
    programs' stretches leave buffers that agree on what it writes (and carries). -/
theorem stretch1_4 (VK : Valuation Cert.KernelIdeal.τ Cert.KernelIdeal.sig (Elt F)) (VR : Valuation Cert.ReferenceIdeal.τ Cert.ReferenceIdeal.sig (Elt F))
    (h_main_v49 : VK (Proc.devRef .tc Cert.KernelIdeal.main_v49) = VR (Proc.devRef .tc Cert.ReferenceIdeal.main_v49))
    (h_main_v50 : VK (Proc.devRef .tc Cert.KernelIdeal.main_v50) = VR (Proc.devRef .tc Cert.ReferenceIdeal.main_v50))
    (h_main_v58 : VK (Proc.devRef .tc Cert.KernelIdeal.main_v58) = VR (Proc.devRef .tc Cert.ReferenceIdeal.main_v58))
    (h_main_v47 : VK (Proc.devRef .tc Cert.KernelIdeal.main_v47) = VR (Proc.devRef .tc Cert.ReferenceIdeal.main_v47))
    (h_main_arg2 : VK (Proc.devRef .tc Cert.KernelIdeal.main_arg2) = VR (Proc.devRef .tc Cert.ReferenceIdeal.main_arg2))
    (h_main_arg5 : VK (Proc.devRef .tc Cert.KernelIdeal.main_arg5) = VR (Proc.devRef .tc Cert.ReferenceIdeal.main_arg5))
    (h_main_arg6 : VK (Proc.devRef .tc Cert.KernelIdeal.main_arg6) = VR (Proc.devRef .tc Cert.ReferenceIdeal.main_arg6)) :
    (after Cert.KernelIdeal.Gen.hostOps1_4 VK (Proc.devRef .tc Cert.KernelIdeal.main_v73) = after Cert.ReferenceIdeal.RefRun.rB4 VR (Proc.devRef .tc Cert.ReferenceIdeal.main_v73))
    ∧ (after Cert.KernelIdeal.Gen.hostOps1_4 VK (Proc.devRef .tc Cert.KernelIdeal.main_v47) = after Cert.ReferenceIdeal.RefRun.rB4 VR (Proc.devRef .tc Cert.ReferenceIdeal.main_v47))
    ∧ (after Cert.KernelIdeal.Gen.hostOps1_4 VK (Proc.devRef .tc Cert.KernelIdeal.main_v49) = after Cert.ReferenceIdeal.RefRun.rB4 VR (Proc.devRef .tc Cert.ReferenceIdeal.main_v49))
    ∧ (after Cert.KernelIdeal.Gen.hostOps1_4 VK (Proc.devRef .tc Cert.KernelIdeal.main_v50) = after Cert.ReferenceIdeal.RefRun.rB4 VR (Proc.devRef .tc Cert.ReferenceIdeal.main_v50))
    ∧ (after Cert.KernelIdeal.Gen.hostOps1_4 VK (Proc.devRef .tc Cert.KernelIdeal.main_arg2) = after Cert.ReferenceIdeal.RefRun.rB4 VR (Proc.devRef .tc Cert.ReferenceIdeal.main_arg2))
    ∧ (after Cert.KernelIdeal.Gen.hostOps1_4 VK (Proc.devRef .tc Cert.KernelIdeal.main_arg5) = after Cert.ReferenceIdeal.RefRun.rB4 VR (Proc.devRef .tc Cert.ReferenceIdeal.main_arg5))
    ∧ (after Cert.KernelIdeal.Gen.hostOps1_4 VK (Proc.devRef .tc Cert.KernelIdeal.main_arg6) = after Cert.ReferenceIdeal.RefRun.rB4 VR (Proc.devRef .tc Cert.ReferenceIdeal.main_arg6)) := by
  refine ⟨?_, ?_, ?_, ?_, ?_, ?_, ?_⟩
  all_goals
    after_results_simp
    finish_results
    try rw [h_main_v49]
    try rw [h_main_v50]
    try rw [h_main_v58]
    try rw [h_main_v47]
    try rw [h_main_arg2]
    try rw [h_main_arg5]
    try rw [h_main_arg6]
    try rfl

set_option maxHeartbeats 8000000 in
/-- The second layer after its product, and the decoder's two gathers.  From buffers that agree on what the stretch reads (and on what it only carries along) the two
    programs' stretches leave buffers that agree on what it writes (and carries). -/
theorem stretch2 (VK : Valuation Cert.KernelIdeal.τ Cert.KernelIdeal.sig (Elt F)) (VR : Valuation Cert.ReferenceIdeal.τ Cert.ReferenceIdeal.sig (Elt F))
    (h_main_v49 : VK (Proc.devRef .tc Cert.KernelIdeal.main_v49) = VR (Proc.devRef .tc Cert.ReferenceIdeal.main_v49))
    (h_main_v50 : VK (Proc.devRef .tc Cert.KernelIdeal.main_v50) = VR (Proc.devRef .tc Cert.ReferenceIdeal.main_v50))
    (h_main_v73 : VK (Proc.devRef .tc Cert.KernelIdeal.main_v73) = VR (Proc.devRef .tc Cert.ReferenceIdeal.main_v73))
    (h_main_v74 : VK (Proc.devRef .tc Cert.KernelIdeal.main_v74) = VR (Proc.devRef .tc Cert.ReferenceIdeal.main_v74))
    (h_main_arg2 : VK (Proc.devRef .tc Cert.KernelIdeal.main_arg2) = VR (Proc.devRef .tc Cert.ReferenceIdeal.main_arg2))
    (h_main_arg6 : VK (Proc.devRef .tc Cert.KernelIdeal.main_arg6) = VR (Proc.devRef .tc Cert.ReferenceIdeal.main_arg6)) :
    (after Cert.KernelIdeal.Gen.hostOps2 VK (Proc.devRef .tc Cert.KernelIdeal.main_v101) = after Cert.ReferenceIdeal.RefRun.rC VR (Proc.devRef .tc Cert.ReferenceIdeal.main_v101))
    ∧ (after Cert.KernelIdeal.Gen.hostOps2 VK (Proc.devRef .tc Cert.KernelIdeal.main_v108) = after Cert.ReferenceIdeal.RefRun.rC VR (Proc.devRef .tc Cert.ReferenceIdeal.main_v108)) := by
  refine ⟨?_, ?_⟩
  all_goals
    after_results_simp
    finish_results
    try rw [h_main_v49]
    try rw [h_main_v50]
    try rw [h_main_v73]
    try rw [h_main_v74]
    try rw [h_main_arg2]
    try rw [h_main_arg6]
    try rfl

end Cert.HostStretches

end
-- ==== Proof.Assembly.lean ====
/-
  The two runs end with the same result.  Both programs run the same host operations around three places where
  they differ: the kernel launches its two dense products and its decoder where the reference has a host dot
  product, a second one, and a product summed along the lanes.  Walking the two programs side by side from
  memories that agree on the arguments: each stretch of host operations leaves agreeing buffers when it starts
  from agreeing buffers; each launched product leaves the matrix product of its operands, which is what the host's
  dot product is on extended reals (a sum over k with nothing rounded and a zero start); a buffer a launch does
  not write is carried across it unchanged; and the decoder's column, cast back to a vector, holds at edge e the
  sum over k of a(e, k) · b(e, k), which is the host's lane sum of the product started from zero.  No step uses
  more of the arithmetic of extended reals than 0 + x = x, so nothing here needs the inputs to be finite.
-/
import proofs.«139701_j12017318494615_1_alg».proof.Proof.KernelRun
import proofs.«139701_j12017318494615_1_alg».proof.Proof.RefRun
import proofs.«139701_j12017318494615_1_alg».proof.Proof.Product1
import proofs.«139701_j12017318494615_1_alg».proof.Proof.Product2
import proofs.«139701_j12017318494615_1_alg».proof.Proof.Decode
import proofs.«139701_j12017318494615_1_alg».proof.Proof.RefProducts
import proofs.«139701_j12017318494615_1_alg».proof.Proof.HostStretches

set_option maxRecDepth 16384

noncomputable section

open scoped BigOperators

namespace Cert.Bridge

open Idealize.ShloMosaic Idealize.ShloMosaic.TcCoe Idealize.ShloMosaic.StableHlo Idealize.SL.Sem
open Cert.KernelIdeal.Gen
open Cert.ReferenceIdeal.RefRun (rA0 rA1 rA2 rB0 rB1 rB2 rB3 rB4 rC rD opDot1 opDot2)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! The reference's buffers after each of its pieces, numbered like the kernel's boundaries. -/
abbrev U0 (c : Dev Cert.ReferenceIdeal.nD) : Valuation Cert.ReferenceIdeal.τ Cert.ReferenceIdeal.sig (Elt Ideal) := launchContents m' c
abbrev U1 (c : Dev Cert.ReferenceIdeal.nD) : Valuation Cert.ReferenceIdeal.τ Cert.ReferenceIdeal.sig (Elt Ideal) := after rA0 (U0 m' c)
abbrev U2 (c : Dev Cert.ReferenceIdeal.nD) : Valuation Cert.ReferenceIdeal.τ Cert.ReferenceIdeal.sig (Elt Ideal) := after rA1 (U1 m' c)
abbrev U3 (c : Dev Cert.ReferenceIdeal.nD) : Valuation Cert.ReferenceIdeal.τ Cert.ReferenceIdeal.sig (Elt Ideal) := after rA2 (U2 m' c)
abbrev U4 (c : Dev Cert.ReferenceIdeal.nD) : Valuation Cert.ReferenceIdeal.τ Cert.ReferenceIdeal.sig (Elt Ideal) := (opDot1 (F := Ideal)).result (U3 m' c)
abbrev U5 (c : Dev Cert.ReferenceIdeal.nD) : Valuation Cert.ReferenceIdeal.τ Cert.ReferenceIdeal.sig (Elt Ideal) := after rB0 (U4 m' c)
abbrev U6 (c : Dev Cert.ReferenceIdeal.nD) : Valuation Cert.ReferenceIdeal.τ Cert.ReferenceIdeal.sig (Elt Ideal) := after rB1 (U5 m' c)
abbrev U7 (c : Dev Cert.ReferenceIdeal.nD) : Valuation Cert.ReferenceIdeal.τ Cert.ReferenceIdeal.sig (Elt Ideal) := after rB2 (U6 m' c)
abbrev U8 (c : Dev Cert.ReferenceIdeal.nD) : Valuation Cert.ReferenceIdeal.τ Cert.ReferenceIdeal.sig (Elt Ideal) := after rB3 (U7 m' c)
abbrev U9 (c : Dev Cert.ReferenceIdeal.nD) : Valuation Cert.ReferenceIdeal.τ Cert.ReferenceIdeal.sig (Elt Ideal) := after rB4 (U8 m' c)
abbrev U10 (c : Dev Cert.ReferenceIdeal.nD) : Valuation Cert.ReferenceIdeal.τ Cert.ReferenceIdeal.sig (Elt Ideal) := (opDot2 (F := Ideal)).result (U9 m' c)
abbrev U11 (c : Dev Cert.ReferenceIdeal.nD) : Valuation Cert.ReferenceIdeal.τ Cert.ReferenceIdeal.sig (Elt Ideal) := after rC (U10 m' c)

/-- The first dense product's buffer after it: the host's dot product of the two argument arrays as found. -/
theorem U4_out (c : Dev Cert.ReferenceIdeal.nD) : U4 m' c (Proc.devRef .tc Cert.ReferenceIdeal.main_v30)
    = Host.dotGeneral (F := Ideal) (φ₁ := .f32) (φ₂ := .f32) Cert.ReferenceIdeal.dot_S50000x512_S512x128_S50000x128_1_0_0_1_n_n none (U3 m' c (Proc.devRef .tc Cert.ReferenceIdeal.main_arg0)) (U3 m' c (Proc.devRef .tc Cert.ReferenceIdeal.main_arg3)) := by
  unfold U4 opDot1
  exact binary_result _ _ _ _ _ _ _ _
/-- Every other buffer is as before it. -/
theorem U4_of_ne (c : Dev Cert.ReferenceIdeal.nD) (b : Ref Cert.ReferenceIdeal.sig .tc) (hb : b ≠ Cert.ReferenceIdeal.main_v30) : U4 m' c (Proc.devRef .tc b) = U3 m' c (Proc.devRef .tc b) := by
  unfold U4 opDot1
  exact binary_result_ne _ _ _ _ _ _ _ _ hb
/-- The second dense product's buffer after it. -/
theorem U10_out (c : Dev Cert.ReferenceIdeal.nD) : U10 m' c (Proc.devRef .tc Cert.ReferenceIdeal.main_v74)
    = Host.dotGeneral (F := Ideal) (φ₁ := .f32) (φ₂ := .f32) Cert.ReferenceIdeal.dot_S50000x128_S128x64_S50000x64_1_0_0_1_n_n none (U9 m' c (Proc.devRef .tc Cert.ReferenceIdeal.main_v47)) (U9 m' c (Proc.devRef .tc Cert.ReferenceIdeal.main_arg5)) := by
  unfold U10 opDot2
  exact binary_result _ _ _ _ _ _ _ _
/-- Every other buffer is as before it. -/
theorem U10_of_ne (c : Dev Cert.ReferenceIdeal.nD) (b : Ref Cert.ReferenceIdeal.sig .tc) (hb : b ≠ Cert.ReferenceIdeal.main_v74) : U10 m' c (Proc.devRef .tc b) = U9 m' c (Proc.devRef .tc b) := by
  unfold U10 opDot2
  exact binary_result_ne _ _ _ _ _ _ _ _ hb

/-- The column's index (e, 0) under the result vector's index i = (e). -/
abbrev col (i : Cert.KernelIdeal.S100000.Idx) : Cert.KernelIdeal.S100000x1.Idx := fun a => match a with
  | ⟨0, _⟩ => ⟨(i 0).val, (i 0).isLt⟩
  | ⟨1, _⟩ => ⟨0, Nat.one_pos⟩

/-- Edge e's inner product read off the column at (e, 0) is the one read off the vector at e. -/
theorem dots_col (a b : Cert.KernelIdeal.S100000x64.Idx → EReal) (i : Cert.KernelIdeal.S100000.Idx) :
    Cert.ReferenceIdeal.Products.laneDots a b i = Cert.KernelIdeal.Decode.dots a b (col i) := by
  unfold Cert.ReferenceIdeal.Products.laneDots Cert.KernelIdeal.Decode.dots
  refine Finset.sum_congr rfl fun kk _ => ?_
  have ei : Cert.KernelIdeal.Decode.lane 64 (col i) kk = Cert.ReferenceIdeal.Products.lane 64 i kk :=
    funext fun a => Fin.ext (by
      match a with
      | ⟨0, _⟩ => rfl
      | ⟨1, _⟩ => rfl)
  rw [ei]

set_option maxHeartbeats 4000000 in
/-- From memories that agree on the arguments, what the reference leaves in its result buffer is what the kernel's
    fold leaves in its own. -/
theorem result_eq (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    after rD (U11 m' c) (Proc.devRef .tc Cert.ReferenceIdeal.main_v110) = W13 m ρ c (Proc.devRef .tc Cert.KernelIdeal.main_v110) := by
  obtain ⟨g0, g1, g2, g3, g4, g5, g6⟩ := hagree
  have a0_main_arg0 : W0 m ρ c (Proc.devRef .tc Cert.KernelIdeal.main_arg0) = U0 m' c (Proc.devRef .tc Cert.ReferenceIdeal.main_arg0) := g0.symm
  have a0_main_arg1 : W0 m ρ c (Proc.devRef .tc Cert.KernelIdeal.main_arg1) = U0 m' c (Proc.devRef .tc Cert.ReferenceIdeal.main_arg1) := g1.symm
  have a0_main_arg2 : W0 m ρ c (Proc.devRef .tc Cert.KernelIdeal.main_arg2) = U0 m' c (Proc.devRef .tc Cert.ReferenceIdeal.main_arg2) := g2.symm
  have a0_main_arg3 : W0 m ρ c (Proc.devRef .tc Cert.KernelIdeal.main_arg3) = U0 m' c (Proc.devRef .tc Cert.ReferenceIdeal.main_arg3) := g3.symm
  have a0_main_arg4 : W0 m ρ c (Proc.devRef .tc Cert.KernelIdeal.main_arg4) = U0 m' c (Proc.devRef .tc Cert.ReferenceIdeal.main_arg4) := g4.symm
  have a0_main_arg5 : W0 m ρ c (Proc.devRef .tc Cert.KernelIdeal.main_arg5) = U0 m' c (Proc.devRef .tc Cert.ReferenceIdeal.main_arg5) := g5.symm
  have a0_main_arg6 : W0 m ρ c (Proc.devRef .tc Cert.KernelIdeal.main_arg6) = U0 m' c (Proc.devRef .tc Cert.ReferenceIdeal.main_arg6) := g6.symm
  -- hostOps0
  obtain ⟨a1_main_v1, a1_main_v3, a1_main_v5, a1_main_v6, a1_main_v12, a1_main_v13, a1_main_cst_2, a1_main_arg0, a1_main_arg2, a1_main_arg3, a1_main_arg4, a1_main_arg5, a1_main_arg6⟩ := Cert.HostStretches.stretch0 (W0 m ρ c) (U0 m' c) a0_main_arg1 a0_main_arg0 a0_main_arg2 a0_main_arg3 a0_main_arg4 a0_main_arg5 a0_main_arg6
  -- hostOps0_1
  obtain ⟨a2_main_v14, a2_main_v1, a2_main_v3, a2_main_v5, a2_main_v6, a2_main_arg0, a2_main_arg2, a2_main_arg3, a2_main_arg4, a2_main_arg5, a2_main_arg6⟩ := Cert.HostStretches.stretch0_1 (W1 m ρ c) (U1 m' c) a1_main_cst_2 a1_main_v12 a1_main_v13 a1_main_v1 a1_main_v3 a1_main_v5 a1_main_v6 a1_main_arg0 a1_main_arg2 a1_main_arg3 a1_main_arg4 a1_main_arg5 a1_main_arg6
  -- hostOps0_2
  obtain ⟨a3_main_v29, a3_main_v1, a3_main_v3, a3_main_v5, a3_main_v6, a3_main_arg0, a3_main_arg2, a3_main_arg3, a3_main_arg4, a3_main_arg5, a3_main_arg6⟩ := Cert.HostStretches.stretch0_2 (W2 m ρ c) (U2 m' c) a2_main_v5 a2_main_v6 a2_main_v14 a2_main_v1 a2_main_v3 a2_main_arg0 a2_main_arg2 a2_main_arg3 a2_main_arg4 a2_main_arg5 a2_main_arg6
  -- launch 0: the first dense product
  have hk0 : W4 m ρ c (Proc.devRef .tc Cert.KernelIdeal.main_v30) = Cert.KernelIdeal.Product1.prod (V3 m ρ c Cert.KernelIdeal.main_arg0) (V3 m ρ c Cert.KernelIdeal.main_arg3) :=
    (W4_arr m ρ c 2).trans (Cert.KernelIdeal.Product1.final (V3 m ρ) c)
  have hr0 := U4_out m' c
  have a4_main_v30 : W4 m ρ c (Proc.devRef .tc Cert.KernelIdeal.main_v30) = U4 m' c (Proc.devRef .tc Cert.ReferenceIdeal.main_v30) := by
    rw [hk0, hr0]
    funext i
    refine Eq.trans ?_ (Cert.ReferenceIdeal.Products.dot1_apply _ _ i).symm
    rw [show V3 m ρ c Cert.KernelIdeal.main_arg0 = U3 m' c (Proc.devRef .tc Cert.ReferenceIdeal.main_arg0) from a3_main_arg0, show V3 m ρ c Cert.KernelIdeal.main_arg3 = U3 m' c (Proc.devRef .tc Cert.ReferenceIdeal.main_arg3) from a3_main_arg3]
    rfl
  have a4_main_v1 : W4 m ρ c (Proc.devRef .tc Cert.KernelIdeal.main_v1) = U4 m' c (Proc.devRef .tc Cert.ReferenceIdeal.main_v1) :=
    (W4_of_ne m ρ c Cert.KernelIdeal.main_v1 (by decide)).trans (a3_main_v1.trans (U4_of_ne m' c Cert.ReferenceIdeal.main_v1 (by decide)).symm)
  have a4_main_v3 : W4 m ρ c (Proc.devRef .tc Cert.KernelIdeal.main_v3) = U4 m' c (Proc.devRef .tc Cert.ReferenceIdeal.main_v3) :=
    (W4_of_ne m ρ c Cert.KernelIdeal.main_v3 (by decide)).trans (a3_main_v3.trans (U4_of_ne m' c Cert.ReferenceIdeal.main_v3 (by decide)).symm)
  have a4_main_v5 : W4 m ρ c (Proc.devRef .tc Cert.KernelIdeal.main_v5) = U4 m' c (Proc.devRef .tc Cert.ReferenceIdeal.main_v5) :=
    (W4_of_ne m ρ c Cert.KernelIdeal.main_v5 (by decide)).trans (a3_main_v5.trans (U4_of_ne m' c Cert.ReferenceIdeal.main_v5 (by decide)).symm)
  have a4_main_v6 : W4 m ρ c (Proc.devRef .tc Cert.KernelIdeal.main_v6) = U4 m' c (Proc.devRef .tc Cert.ReferenceIdeal.main_v6) :=
    (W4_of_ne m ρ c Cert.KernelIdeal.main_v6 (by decide)).trans (a3_main_v6.trans (U4_of_ne m' c Cert.ReferenceIdeal.main_v6 (by decide)).symm)
  have a4_main_v29 : W4 m ρ c (Proc.devRef .tc Cert.KernelIdeal.main_v29) = U4 m' c (Proc.devRef .tc Cert.ReferenceIdeal.main_v29) :=
    (W4_of_ne m ρ c Cert.KernelIdeal.main_v29 (by decide)).trans (a3_main_v29.trans (U4_of_ne m' c Cert.ReferenceIdeal.main_v29 (by decide)).symm)
  have a4_main_arg2 : W4 m ρ c (Proc.devRef .tc Cert.KernelIdeal.main_arg2) = U4 m' c (Proc.devRef .tc Cert.ReferenceIdeal.main_arg2) :=
    (W4_of_ne m ρ c Cert.KernelIdeal.main_arg2 (by decide)).trans (a3_main_arg2.trans (U4_of_ne m' c Cert.ReferenceIdeal.main_arg2 (by decide)).symm)
  have a4_main_arg4 : W4 m ρ c (Proc.devRef .tc Cert.KernelIdeal.main_arg4) = U4 m' c (Proc.devRef .tc Cert.ReferenceIdeal.main_arg4) :=
    (W4_of_ne m ρ c Cert.KernelIdeal.main_arg4 (by decide)).trans (a3_main_arg4.trans (U4_of_ne m' c Cert.ReferenceIdeal.main_arg4 (by decide)).symm)
  have a4_main_arg5 : W4 m ρ c (Proc.devRef .tc Cert.KernelIdeal.main_arg5) = U4 m' c (Proc.devRef .tc Cert.ReferenceIdeal.main_arg5) :=
    (W4_of_ne m ρ c Cert.KernelIdeal.main_arg5 (by decide)).trans (a3_main_arg5.trans (U4_of_ne m' c Cert.ReferenceIdeal.main_arg5 (by decide)).symm)
  have a4_main_arg6 : W4 m ρ c (Proc.devRef .tc Cert.KernelIdeal.main_arg6) = U4 m' c (Proc.devRef .tc Cert.ReferenceIdeal.main_arg6) :=
    (W4_of_ne m ρ c Cert.KernelIdeal.main_arg6 (by decide)).trans (a3_main_arg6.trans (U4_of_ne m' c Cert.ReferenceIdeal.main_arg6 (by decide)).symm)
  -- hostOps1
  obtain ⟨a5_main_v46, a5_main_v1, a5_main_v3, a5_main_arg2, a5_main_arg5, a5_main_arg6⟩ := Cert.HostStretches.stretch1 (W4 m ρ c) (U4 m' c) a4_main_v5 a4_main_v6 a4_main_v29 a4_main_v30 a4_main_arg4 a4_main_v1 a4_main_v3 a4_main_arg2 a4_main_arg5 a4_main_arg6
  -- hostOps1_1
  obtain ⟨a6_main_v47, a6_main_v1, a6_main_v3, a6_main_arg2, a6_main_arg5, a6_main_arg6⟩ := Cert.HostStretches.stretch1_1 (W5 m ρ c) (U5 m' c) a5_main_v46 a5_main_v1 a5_main_v3 a5_main_arg2 a5_main_arg5 a5_main_arg6
  -- hostOps1_2
  obtain ⟨a7_main_v49, a7_main_v50, a7_main_v56, a7_main_v57, a7_main_cst_12, a7_main_v47, a7_main_arg2, a7_main_arg5, a7_main_arg6⟩ := Cert.HostStretches.stretch1_2 (W6 m ρ c) (U6 m' c) a6_main_v1 a6_main_v3 a6_main_v47 a6_main_arg2 a6_main_arg5 a6_main_arg6
  -- hostOps1_3
  obtain ⟨a8_main_v58, a8_main_v47, a8_main_v49, a8_main_v50, a8_main_arg2, a8_main_arg5, a8_main_arg6⟩ := Cert.HostStretches.stretch1_3 (W7 m ρ c) (U7 m' c) a7_main_cst_12 a7_main_v56 a7_main_v57 a7_main_v47 a7_main_v49 a7_main_v50 a7_main_arg2 a7_main_arg5 a7_main_arg6
  -- hostOps1_4
  obtain ⟨a9_main_v73, a9_main_v47, a9_main_v49, a9_main_v50, a9_main_arg2, a9_main_arg5, a9_main_arg6⟩ := Cert.HostStretches.stretch1_4 (W8 m ρ c) (U8 m' c) a8_main_v49 a8_main_v50 a8_main_v58 a8_main_v47 a8_main_arg2 a8_main_arg5 a8_main_arg6
  -- launch 1: the second dense product
  have hk1 : W10 m ρ c (Proc.devRef .tc Cert.KernelIdeal.main_v74) = Cert.KernelIdeal.Product2.prod (V9 m ρ c Cert.KernelIdeal.main_v47) (V9 m ρ c Cert.KernelIdeal.main_arg5) :=
    (W10_arr m ρ c 2).trans (Cert.KernelIdeal.Product2.final (V9 m ρ) c)
  have hr1 := U10_out m' c
  have a10_main_v74 : W10 m ρ c (Proc.devRef .tc Cert.KernelIdeal.main_v74) = U10 m' c (Proc.devRef .tc Cert.ReferenceIdeal.main_v74) := by
    rw [hk1, hr1]
    funext i
    refine Eq.trans ?_ (Cert.ReferenceIdeal.Products.dot2_apply _ _ i).symm
    rw [show V9 m ρ c Cert.KernelIdeal.main_v47 = U9 m' c (Proc.devRef .tc Cert.ReferenceIdeal.main_v47) from a9_main_v47, show V9 m ρ c Cert.KernelIdeal.main_arg5 = U9 m' c (Proc.devRef .tc Cert.ReferenceIdeal.main_arg5) from a9_main_arg5]
    rfl
  have a10_main_v49 : W10 m ρ c (Proc.devRef .tc Cert.KernelIdeal.main_v49) = U10 m' c (Proc.devRef .tc Cert.ReferenceIdeal.main_v49) :=
    (W10_of_ne m ρ c Cert.KernelIdeal.main_v49 (by decide)).trans (a9_main_v49.trans (U10_of_ne m' c Cert.ReferenceIdeal.main_v49 (by decide)).symm)
  have a10_main_v50 : W10 m ρ c (Proc.devRef .tc Cert.KernelIdeal.main_v50) = U10 m' c (Proc.devRef .tc Cert.ReferenceIdeal.main_v50) :=
    (W10_of_ne m ρ c Cert.KernelIdeal.main_v50 (by decide)).trans (a9_main_v50.trans (U10_of_ne m' c Cert.ReferenceIdeal.main_v50 (by decide)).symm)
  have a10_main_v73 : W10 m ρ c (Proc.devRef .tc Cert.KernelIdeal.main_v73) = U10 m' c (Proc.devRef .tc Cert.ReferenceIdeal.main_v73) :=
    (W10_of_ne m ρ c Cert.KernelIdeal.main_v73 (by decide)).trans (a9_main_v73.trans (U10_of_ne m' c Cert.ReferenceIdeal.main_v73 (by decide)).symm)
  have a10_main_arg2 : W10 m ρ c (Proc.devRef .tc Cert.KernelIdeal.main_arg2) = U10 m' c (Proc.devRef .tc Cert.ReferenceIdeal.main_arg2) :=
    (W10_of_ne m ρ c Cert.KernelIdeal.main_arg2 (by decide)).trans (a9_main_arg2.trans (U10_of_ne m' c Cert.ReferenceIdeal.main_arg2 (by decide)).symm)
  have a10_main_arg6 : W10 m ρ c (Proc.devRef .tc Cert.KernelIdeal.main_arg6) = U10 m' c (Proc.devRef .tc Cert.ReferenceIdeal.main_arg6) :=
    (W10_of_ne m ρ c Cert.KernelIdeal.main_arg6 (by decide)).trans (a9_main_arg6.trans (U10_of_ne m' c Cert.ReferenceIdeal.main_arg6 (by decide)).symm)
  -- hostOps2
  obtain ⟨a11_main_v101, a11_main_v108⟩ := Cert.HostStretches.stretch2 (W10 m ρ c) (U10 m' c) a10_main_v49 a10_main_v50 a10_main_v73 a10_main_v74 a10_main_arg2 a10_main_arg6
  -- the decoder
  have hk2 : W12 m ρ c (Proc.devRef .tc Cert.KernelIdeal.main_v109) = Cert.KernelIdeal.Decode.dots (V11 m ρ c Cert.KernelIdeal.main_v101) (V11 m ρ c Cert.KernelIdeal.main_v108) :=
    (W12_arr m ρ c 2).trans (Cert.KernelIdeal.Decode.final (V11 m ρ) c)
  have e1 : W13 m ρ c (Proc.devRef .tc Cert.KernelIdeal.main_v110)
      = fun i => shapeCast Cert.KernelIdeal.S100000 (W12 m ρ c (Proc.devRef .tc Cert.KernelIdeal.main_v109)) Cert.KernelIdeal.Gen.shapeCasts_S100000x1_S100000 i := by
    show after hostOps3 (W12 m ρ c) (Proc.devRef .tc Cert.KernelIdeal.main_v110) = _
    after_results <;> rfl
  funext (i : Cert.KernelIdeal.S100000.Idx)
  have hL : W13 m ρ c (Proc.devRef .tc Cert.KernelIdeal.main_v110) i
      = Cert.KernelIdeal.Decode.dots (V11 m ρ c Cert.KernelIdeal.main_v101) (V11 m ρ c Cert.KernelIdeal.main_v108) (col i) := by
    rw [e1]
    show shapeCast Cert.KernelIdeal.S100000 (W12 m ρ c (Proc.devRef .tc Cert.KernelIdeal.main_v109)) Cert.KernelIdeal.Gen.shapeCasts_S100000x1_S100000 i = _
    refine (shapeCast_apply (s := Cert.KernelIdeal.S100000x1) (t := Cert.KernelIdeal.S100000) (W12 m ρ c (Proc.devRef .tc Cert.KernelIdeal.main_v109)) Cert.KernelIdeal.Gen.shapeCasts_S100000x1_S100000 i (col i) (by
      show (Cert.KernelIdeal.S100000x1.rowMajor (col i)).val = (Cert.KernelIdeal.S100000.rowMajor i).val
      rw [Shape.rowMajor_val_two, Shape.rowMajor_val_one]; show (i 0).val * 1 + 0 = (i 0).val; omega)).trans ?_
    rw [hk2]
  have hR : after rD (U11 m' c) (Proc.devRef .tc Cert.ReferenceIdeal.main_v110) i
      = Cert.ReferenceIdeal.Products.laneDots (U11 m' c (Proc.devRef .tc Cert.ReferenceIdeal.main_v101)) (U11 m' c (Proc.devRef .tc Cert.ReferenceIdeal.main_v108)) i := by
    after_results
    exact Cert.ReferenceIdeal.Products.laneSum_apply _ _ i
  rw [hR, hL]
  rw [show V11 m ρ c Cert.KernelIdeal.main_v101 = U11 m' c (Proc.devRef .tc Cert.ReferenceIdeal.main_v101) from a11_main_v101,
    show V11 m ρ c Cert.KernelIdeal.main_v108 = U11 m' c (Proc.devRef .tc Cert.ReferenceIdeal.main_v108) from a11_main_v108]
  exact dots_col _ _ i

end Cert.Bridge

end
-- ==== Proof.lean ====
/-
  A two-layer graph convolution with a dot-product edge decoder, as a kernel program and as its jnp reference.

  With A the edge list plus self loops, deg the in-degrees and d = deg^(-1/2) (zero where deg is not positive), a
  layer is  out(t, :) = sum over edges (s, t) of d(s) · d(t) · (x W)(s, :)  + b; the network is layer 2 of the
  rectified layer 1, and the decoder scores a labelled edge (u, v) by the inner product of rows u and v.

  The kernel program computes x W1 and z W2 by launches that walk the rows in blocks, each block a bf16-narrowed
  product into a zero accumulator, and the decoder by a launch that multiplies two gathered blocks and sums along
  the lanes; everything else (degrees, weights, gathers, scatter-adds, biases, the rectifier) is the same host
  operations as the reference's.  On extended reals narrowing is the identity and a product into zero is the
  plain sum over k, so each launch leaves what the reference's host operation computes there, entry by entry;
  the host stretches between them are the same expressions of agreeing inputs.  Hence the two programs, run from
  memories that agree on the arguments, end with the same result (Proof/Assembly.lean).  The idealization
  rewrote nothing, so there is nothing to preserve; and each program runs to the end with its arguments
  unchanged: the two kernel programs by their launch-by-launch frame, the reference by its run read back.
-/
import proofs.«139701_j12017318494615_1_alg».proof.Defs
import proofs.«139701_j12017318494615_1_alg».proof.Proof.Gen.Kernel
import proofs.«139701_j12017318494615_1_alg».proof.Proof.Gen.Kernel.Frame
import proofs.«139701_j12017318494615_1_alg».proof.Proof.Gen.KernelIdeal
import proofs.«139701_j12017318494615_1_alg».proof.Proof.Gen.KernelIdeal.Frame
import proofs.«139701_j12017318494615_1_alg».proof.Proof.Gen.ReferenceIdeal
import proofs.«139701_j12017318494615_1_alg».proof.Proof.Gen.Pre_finite_inputs
import proofs.«139701_j12017318494615_1_alg».proof.Proof.Assembly
import Idealize.ShloMosaic.Adequacy
import Idealize.ShloMosaic.Init

noncomputable section

namespace Cert.Proof

open Idealize.ShloMosaic Idealize.SL.Sem

/-- The kernel program, word for word, runs to the end with its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Run from memories that agree on the arguments, the idealized kernel and the idealized reference end with the
    same result: the kernel's is the last stage of its fold at the result buffer, and the reference's pieces
    leave the same there. -/
theorem algebraic : Cert.algebraic_KernelIdeal_ReferenceIdeal := by
  intro m ρ m' ρ' _ hagree
  refine ⟨fun c => Cert.KernelIdeal.Gen.W13 m ρ c (Proc.devRef .tc Cert.KernelIdeal.main_v110),
    Cert.KernelIdeal.RunValue.run (F := Ideal) m ρ, ?_⟩
  exact (θ_run Cert.ReferenceIdeal.defs _ _).mono
    (fun _ h c => ⟨(h c).1.trans (Cert.Bridge.result_eq m ρ m' c (hagree c)), (h c).2⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
